-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 152
  | .vmem => 30
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000, .f32⟩
  | 27 => ⟨S100000x1, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x1, .f32⟩
  | 44 => ⟨S100000x128, .f32⟩
  | 45 => ⟨S100000x128, .f32⟩
  | 46 => ⟨S1x128, .f32⟩
  | 47 => ⟨S100000x128, .f32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S_, .f32⟩
  | 66 => ⟨S_, .f32⟩
  | 67 => ⟨S_, .f32⟩
  | 68 => ⟨S128, .f32⟩
  | 69 => ⟨S1x128, .f32⟩
  | 70 => ⟨S1x128, .f32⟩
  | 71 => ⟨S1x128, .f32⟩
  | 72 => ⟨S_, .f32⟩
  | 73 => ⟨S_, .i1⟩
  | 74 => ⟨S_, .f32⟩
  | 75 => ⟨S_, .f32⟩
  | 76 => ⟨S1x128, .f32⟩
  | 77 => ⟨S1x128, .f32⟩
  | 78 => ⟨S100000x128, .f32⟩
  | 79 => ⟨S100000x1, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x1, .f32⟩
  | 96 => ⟨S100000x128, .f32⟩
  | 97 => ⟨S100000x128, .f32⟩
  | 98 => ⟨S1x128, .f32⟩
  | 99 => ⟨S100000x128, .f32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S_, .f32⟩
  | 118 => ⟨S_, .f32⟩
  | 119 => ⟨S_, .f32⟩
  | 120 => ⟨S128, .f32⟩
  | 121 => ⟨S1x128, .f32⟩
  | 122 => ⟨S1x128, .f32⟩
  | 123 => ⟨S1x128, .f32⟩
  | 124 => ⟨S_, .f32⟩
  | 125 => ⟨S_, .i1⟩
  | 126 => ⟨S_, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S100000x128, .f32⟩
  | 3 => ⟨S100000x1, .f32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x1, .f32⟩
  | 20 => ⟨S100000x128, .f32⟩
  | 21 => ⟨S100000x128, .f32⟩
  | 22 => ⟨S1x64, .f32⟩
  | 23 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_cst_3 : Ref sig .tc := ⟨.hbm, 72, rfl⟩
abbrev main_call0_v13 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_9 : Ref sig .tc := ⟨.hbm, 82, rfl⟩
abbrev main_v40 : Ref sig .tc := ⟨.hbm, 83, rfl⟩
abbrev main_v41 : Ref sig .tc := ⟨.hbm, 84, rfl⟩
abbrev main_c_10 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_11 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_12 : Ref sig .tc := ⟨.hbm, 100, rfl⟩
abbrev main_v55 : Ref sig .tc := ⟨.hbm, 101, rfl⟩
abbrev main_v56 : Ref sig .tc := ⟨.hbm, 102, rfl⟩
abbrev main_cst_13 : Ref sig .tc := ⟨.hbm, 103, rfl⟩
abbrev main_v57 : Ref sig .tc := ⟨.hbm, 104, rfl⟩
abbrev main_v58 : Ref sig .tc := ⟨.hbm, 105, rfl⟩
abbrev main_c_14 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_cst_1 : Ref sig .tc := ⟨.hbm, 117, rfl⟩
abbrev main_call1_v8 : Ref sig .tc := ⟨.hbm, 118, rfl⟩
abbrev main_call1_cst_2 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_v12 : Ref sig .tc := ⟨.hbm, 123, rfl⟩
abbrev main_call1_cst_3 : Ref sig .tc := ⟨.hbm, 124, rfl⟩
abbrev main_call1_v13 : Ref sig .tc := ⟨.hbm, 125, rfl⟩
abbrev main_call1_cst_4 : Ref sig .tc := ⟨.hbm, 126, rfl⟩
abbrev main_call1_call0_v0 : Ref sig .tc := ⟨.hbm, 127, rfl⟩
abbrev main_call1_call0_v1 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_15 : Ref sig .tc := ⟨.hbm, 134, rfl⟩
abbrev main_v64 : Ref sig .tc := ⟨.hbm, 135, rfl⟩
abbrev main_v65 : Ref sig .tc := ⟨.hbm, 136, rfl⟩
abbrev main_c_16 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_17 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v28) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000, .f32⟩
  | 27 => ⟨S100000x1, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S100000x1, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S128, .f32⟩
  | 119 => ⟨S_, .f32⟩
  | 120 => ⟨S128, .f32⟩
  | 121 => ⟨S128, .f32⟩
  | 122 => ⟨S_, .i32⟩
  | 123 => ⟨S_, .f32⟩
  | 124 => ⟨S128, .f32⟩
  | 125 => ⟨S1x128, .f32⟩
  | 126 => ⟨S_, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .f32⟩
  | 5 => ⟨S_, .f32⟩
  | 6 => ⟨S_, .f32⟩
  | 7 => ⟨S_, .f32⟩
  | 8 => ⟨S128, .f32⟩
  | 9 => ⟨S128, .f32⟩
  | 10 => ⟨S128, .f32⟩
  | 11 => ⟨S_, .f32⟩
  | 12 => ⟨S_, .i1⟩
  | 13 => ⟨S_, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S100000x1, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x1, .f32⟩
  | 44 => ⟨S100000x128, .f32⟩
  | 45 => ⟨S100000x128, .f32⟩
  | 46 => ⟨S100000x64, .f32⟩
  | 47 => ⟨S1x64, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_9 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_10 : Ref sig .tc := ⟨.hbm, 94, rfl⟩
abbrev main_v50 : Ref sig .tc := ⟨.hbm, 95, rfl⟩
abbrev main_v51 : Ref sig .tc := ⟨.hbm, 96, rfl⟩
abbrev main_c_11 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_12 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call2_cst : Ref sig .tc := ⟨.hbm, 114, rfl⟩
abbrev main_call2_v0 : Ref sig .tc := ⟨.hbm, 115, rfl⟩
abbrev main_v67 : Ref sig .tc := ⟨.hbm, 116, rfl⟩
abbrev main_cst_13 : Ref sig .tc := ⟨.hbm, 117, rfl⟩
abbrev main_v68 : Ref sig .tc := ⟨.hbm, 118, rfl⟩
abbrev main_cst_14 : Ref sig .tc := ⟨.hbm, 119, rfl⟩
abbrev main_v69 : Ref sig .tc := ⟨.hbm, 120, rfl⟩
abbrev main_v70 : Ref sig .tc := ⟨.hbm, 121, rfl⟩
abbrev main_c_15 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_cst_1 : Ref sig .tc := ⟨.hbm, 133, rfl⟩
abbrev main_call3_v8 : Ref sig .tc := ⟨.hbm, 134, rfl⟩
abbrev main_call3_cst_2 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_cst_3 : Ref sig .tc := ⟨.hbm, 139, rfl⟩
abbrev main_call3_v12 : Ref sig .tc := ⟨.hbm, 140, rfl⟩
abbrev main_call3_cst_4 : Ref sig .tc := ⟨.hbm, 141, rfl⟩
abbrev main_call3_call0_v0 : Ref sig .tc := ⟨.hbm, 142, rfl⟩
abbrev main_call3_call0_v1 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_cst_16 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_c_17 : Ref sig .tc := ⟨.hbm, 158, rfl⟩
abbrev main_v84 : Ref sig .tc := ⟨.hbm, 159, rfl⟩
abbrev main_v85 : Ref sig .tc := ⟨.hbm, 160, rfl⟩
abbrev main_c_18 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_cst_19 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel program's run with its result kept: every weakly fair execution of the program from a memory with zero
  counters terminates, nothing faulting, with the result buffer at the last boundary's contents of the fold through
  the program's stretches and regions, and every argument array as launched.
-/
import proofs.«117376_j33208687133526_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result: in every final state the result buffer holds the last boundary's contents, and the nine
    argument arrays hold what they were launched with. The final state is read against the last thread state, which
    holds every unscoped buffer at the last boundary's contents. -/
theorem run_W12 : θ_run defs (onTc (τ := τ) (main (F := F))) ⟨m, fun _ => 0, ρ⟩ (fun r => ∀ c : Dev nD,
      r.2.mem ((c.tc : Thread nD τ).loc main_v78) = Gen.W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KValue

end
-- ==== Proof.GcnSpec.lean ====
/-
  Three graph-convolution layers with a batch normalisation after each of the first two, as functions of plain
  arrays of extended reals.

  A layer takes the node features `h` (one row per node), aggregates them along the edges (`agg h`: scale each
  row by the source node's degree factor, add up the rows arriving at each destination, scale by the
  destination's factor), and applies an affine map `· w + b`; the first two layers clamp the result at zero from
  below and then normalise every column by that column's mean and variance over all nodes,
  `(y − mean) · (var + ε)^(−1/2)`.

  The aggregation and the two column statistics are PARAMETERS here: both programs compute them by the same
  chains of whole-array operations, and nothing below looks inside them.
-/
import Idealize.ShloMosaic.PureOps.Ideal
import Idealize.ShloMosaic.Lib.ValueIdx

noncomputable section

open scoped BigOperators
open Idealize.ShloMosaic Idealize.ShloMosaic.ValueIdx

namespace GcnSpec

/-- A matrix of extended reals with `n` rows and `c` columns. -/
abbrev Mat (n c : ℕ) : Type := (⟨2, ![n, c]⟩ : Shape).Idx → EReal

/-- The entry `(p, q)` of `a · w + b`, the bias `b` added to every row: the sum over the 128 positions of row `p`
    of `a` against column `q` of `w`, plus `b q`. -/
def affineAt {n c : ℕ} (a : Mat n 128) (w : Mat 128 c) (b : Fin c → EReal) (p : Fin n) (q : Fin c) : EReal :=
  (∑ k : Fin 128, a (ix2 p k) * w (ix2 k q)) + b q

/-- `a · w + b`. -/
def affine {n c : ℕ} (a : Mat n 128) (w : Mat 128 c) (b : Fin c → EReal) : Mat n c :=
  fun j => affineAt a w b (j 0) (j 1)

/-- `max (a · w + b) 0`, entry by entry. -/
def affineRelu {n c : ℕ} (a : Mat n 128) (w : Mat 128 c) (b : Fin c → EReal) : Mat n c :=
  fun j => max (affineAt a w b (j 0) (j 1)) (Ideal.ofBits .f32 0x00000000#32)

theorem affine_ix2 {n c : ℕ} (a : Mat n 128) (w : Mat 128 c) (b : Fin c → EReal) (p : Fin n) (q : Fin c) :
    affine a w b (ix2 p q) = affineAt a w b p q := rfl

theorem affineRelu_ix2 {n c : ℕ} (a : Mat n 128) (w : Mat 128 c) (b : Fin c → EReal) (p : Fin n) (q : Fin c) :
    affineRelu a w b (ix2 p q) = max (affineAt a w b p q) (Ideal.ofBits .f32 0x00000000#32) := rfl

/-- Column `q` of `y` shifted by `mean q` and scaled by `(var q + ε)^(−1/2)`, `ε` the single-precision word
    nearest to `10⁻⁵`. -/
def bnorm {n : ℕ} (y : Mat n 128) (mean var : Fin 128 → EReal) : Mat n 128 :=
  fun j => (y j - mean (j 1)) * Ideal.rsqrt (var (j 1) + Ideal.ofBits .f32 0x3727C5AC#32)

theorem bnorm_ix2 {n : ℕ} (y : Mat n 128) (mean var : Fin 128 → EReal) (p : Fin n) (q : Fin 128) :
    bnorm y mean var (ix2 p q) = (y (ix2 p q) - mean q) * Ideal.rsqrt (var q + Ideal.ofBits .f32 0x3727C5AC#32) := rfl

/-- One hidden layer: aggregate, affine map, clamp at zero, normalise the columns. -/
def hidden (agg : Mat 100000 128 → Mat 100000 128) (mean var : Mat 100000 128 → Fin 128 → EReal)
    (h : Mat 100000 128) (w : Mat 128 128) (b : Fin 128 → EReal) : Mat 100000 128 :=
  bnorm (affineRelu (agg h) w b) (mean (affineRelu (agg h) w b)) (var (affineRelu (agg h) w b))

/-- The network: two hidden layers, then a last aggregation and affine map onto 64 columns. -/
def net (agg : Mat 100000 128 → Mat 100000 128) (mean var : Mat 100000 128 → Fin 128 → EReal)
    (x : Mat 100000 128) (w0 : Mat 128 128) (b0 : Fin 128 → EReal) (w1 : Mat 128 128) (b1 : Fin 128 → EReal)
    (w2 : Mat 128 64) (b2 : Fin 64 → EReal) : Mat 100000 64 :=
  affine (agg (hidden agg mean var (hidden agg mean var x w0 b0) w1 b1)) w2 b2

end GcnSpec

end
-- ==== Proof.KTerms.lean ====
/-
  The kernel program's own whole-array terms at the exact extended-real reading of floats, as functions of what they are
  computed from: the two per-node degree factors (from the edge lists), the aggregation along the edges (scale by
  the source factor, gather along the edges, add up at the destinations, scale by the destination factor), and the
  two column statistics (the mean over all rows and the mean squared deviation from it).
-/
import proofs.«117376_j33208687133526_1_alg».proof.KernelIdeal
import proofs.«117376_j33208687133526_1_alg».proof.Proof.Gen.KernelIdeal
import proofs.«117376_j33208687133526_1_alg».proof.Proof.GcnSpec

noncomputable section

namespace Cert.KernelIdeal.KValue

open Cert.KernelIdeal Cert.KernelIdeal.Gen
open Idealize.ShloMosaic Idealize.ShloMosaic.ValueIdx

/-- The source-side degree factor of every node: the number of edges listed at the node in the first edge list (ones
    added up at the listed positions, from zero), at least one, to the power −1/2. -/
def normSrcK (a7 : IVec S1600000 32) : FVec Ideal S100000 .f32 :=
  Host.rsqrt (F := Ideal) (φ := .f32) (s := S100000)
    (maximumf (F := Ideal) (φ := .f32) (s := S100000)
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 a7)
        (broadcastInDim S1600000 ![] bcast_S_S1600000 (constant (F := Ideal) S_ .f32 0x3F800000#32)))
      (broadcastInDim S100000 ![] bcast_S_S100000 (constant (F := Ideal) S_ .f32 0x3F800000#32)))

/-- The destination-side degree factor of every node: the same from the second edge list. -/
def normDstK (a8 : IVec S1600000 32) : FVec Ideal S100000 .f32 :=
  Host.rsqrt (F := Ideal) (φ := .f32) (s := S100000)
    (maximumf (F := Ideal) (φ := .f32) (s := S100000)
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 a8)
        (broadcastInDim S1600000 ![] bcast_S_S1600000 (constant (F := Ideal) S_ .f32 0x3F800000#32)))
      (broadcastInDim S100000 ![] bcast_S_S100000 (constant (F := Ideal) S_ .f32 0x3F800000#32)))

/-- The aggregation along the edges: every row of `h` scaled by its node's source factor, the rows gathered at the
    first edge list's nodes (a negative entry read from the end), added up at the second edge list's nodes from zero,
    and every row of the sums scaled by its node's destination factor. -/
def aggK (a7 a8 : IVec S1600000 32) (h : GcnSpec.Mat 100000 128) : GcnSpec.Mat 100000 128 :=
  mulf (F := Ideal) (φ := .f32) (s := S100000x128)
    (Host.scatterAdd (F := Ideal) (φ := .f32) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 a8)
      (Host.gather gather_S100000x128_S1600000x1_S1600000x128_1_0_n_n_0_1_1128
        (mulf (F := Ideal) (φ := .f32) (s := S100000x128) h
          (broadcastInDim S100000x128 ![0, 1] bcast_S100000x1_S100000x128_0_1
            (broadcastInDim S100000x1 ![0] bcast_S100000_S100000x1_0 (normSrcK a7))))
        (broadcastInDim S1600000x1 ![0] bcast_S1600000_S1600000x1_0
          (select (cmpi .slt a7 (broadcastInDim S1600000 ![] bcast_S_S1600000 (constantI S_ 32 0#32)))
            (addi a7 (broadcastInDim S1600000 ![] bcast_S_S1600000 (constantI S_ 32 100000#32)))
            a7))))
    (broadcastInDim S100000x128 ![0, 1] bcast_S100000x1_S100000x128_0_1
      (broadcastInDim S100000x1 ![0] bcast_S100000_S100000x1_0 (normDstK a8)))

/-- The column means as a one-row array: every column of `y` added up over the rows from zero, divided by the number
    of rows (the single-precision word of 100000). -/
def meanRowK (y : GcnSpec.Mat 100000 128) : FVec Ideal S1x128 .f32 :=
  Host.divf (F := Ideal) (φ := .f32) (s := S1x128)
    (broadcastInDim S1x128 ![1] bcast_S128_S1x128_1
      (Host.reduceAdd (F := Ideal) (φ := .f32) (s := S100000x128) y (constant (F := Ideal) S_ .f32 0x00000000#32)
        reducesTo_S100000x128_S128_d0 h_S_))
    (broadcastInDim S1x128 ![] bcast_S_S1x128 (constant (F := Ideal) S_ .f32 0x47C35000#32))

/-- The mean of column `q` of `y`. -/
def meanK (y : GcnSpec.Mat 100000 128) : Fin 128 → EReal := fun q => meanRowK y (ix2 (0 : Fin 1) q)

/-- The column variances as a one-row array: the squared deviations of `y` from its column means added up over the
    rows from zero and divided by the number of rows less the correction `0` (converted from the integer), where that
    divisor is positive, and the not-a-number word elsewhere. -/
def varRowK (y : GcnSpec.Mat 100000 128) : FVec Ideal S1x128 .f32 :=
  select
    (broadcastInDim S1x128 ![] bcast_S_S1x128
      (cmpf (F := Ideal) (φ := .f32) (s := S_) .ogt
        (subf (F := Ideal) (φ := .f32) (s := S_) (constant (F := Ideal) S_ .f32 0x47C35000#32)
          (sitofp (F := Ideal) (s := S_) .f32 (constantI S_ 32 0#32)))
        (constant (F := Ideal) S_ .f32 0x00000000#32)))
    (Host.divf (F := Ideal) (φ := .f32) (s := S1x128)
      (broadcastInDim S1x128 ![1] bcast_S128_S1x128_1
        (Host.reduceAdd (F := Ideal) (φ := .f32) (s := S100000x128)
          (mulf (F := Ideal) (φ := .f32) (s := S100000x128)
            (subf (F := Ideal) (φ := .f32) (s := S100000x128) y
              (broadcastInDim S100000x128 ![0, 1] bcast_S1x128_S100000x128_0_1 (meanRowK y)))
            (subf (F := Ideal) (φ := .f32) (s := S100000x128) y
              (broadcastInDim S100000x128 ![0, 1] bcast_S1x128_S100000x128_0_1 (meanRowK y))))
          (constant (F := Ideal) S_ .f32 0x00000000#32)
          reducesTo_S100000x128_S128_d0 h_S_))
      (broadcastInDim S1x128 ![] bcast_S_S1x128
        (subf (F := Ideal) (φ := .f32) (s := S_) (constant (F := Ideal) S_ .f32 0x47C35000#32)
          (sitofp (F := Ideal) (s := S_) .f32 (constantI S_ 32 0#32)))))
    (broadcastInDim S1x128 ![] bcast_S_S1x128 (id (constant (F := Ideal) S_ .f32 0x7FC00000#32)))

/-- The variance of column `q` of `y`. -/
def varK (y : GcnSpec.Mat 100000 128) : Fin 128 → EReal := fun q => varRowK y (ix2 (0 : Fin 1) q)

end Cert.KernelIdeal.KValue

end
-- ==== Proof.KHost.lean ====
/-
  The kernel program's stretches of whole-array operations, each read as a function of the buffer contents it starts
  from: what a stretch leaves in the buffers the next region (or a later stretch) reads, as the terms of KTerms, and
  which buffers it leaves alone. Every statement is over an arbitrary starting valuation.
-/
import proofs.«117376_j33208687133526_1_alg».proof.Proof.Gen.KernelIdeal.Launch
import proofs.«117376_j33208687133526_1_alg».proof.Proof.KTerms
import Idealize.ShloMosaic.Lib.StableHlo.Run
import Idealize.ShloMosaic.Lib.Pipeline.Value

set_option maxRecDepth 16384

noncomputable section

namespace Cert.KernelIdeal.KValue

open Cert.KernelIdeal Cert.KernelIdeal.Gen
open Idealize.ShloMosaic Idealize.ShloMosaic.ValueIdx Idealize.ShloMosaic.TcCoe Idealize.SL.Sem

/-- The aggregation along the edges with the two degree factors as arguments. -/
def aggWith (a7 a8 : IVec S1600000 32) (n1 n2 : FVec Ideal S100000 .f32) (h : GcnSpec.Mat 100000 128) : GcnSpec.Mat 100000 128 :=
  mulf (F := Ideal) (φ := .f32) (s := S100000x128)
    (Host.scatterAdd (F := Ideal) (φ := .f32) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 a8)
      (Host.gather gather_S100000x128_S1600000x1_S1600000x128_1_0_n_n_0_1_1128
        (mulf (F := Ideal) (φ := .f32) (s := S100000x128) h
          (broadcastInDim S100000x128 ![0, 1] bcast_S100000x1_S100000x128_0_1
            (broadcastInDim S100000x1 ![0] bcast_S100000_S100000x1_0 n1)))
        (broadcastInDim S1600000x1 ![0] bcast_S1600000_S1600000x1_0
          (select (cmpi .slt a7 (broadcastInDim S1600000 ![] bcast_S_S1600000 (constantI S_ 32 0#32)))
            (addi a7 (broadcastInDim S1600000 ![] bcast_S_S1600000 (constantI S_ 32 100000#32)))
            a7))))
    (broadcastInDim S100000x128 ![0, 1] bcast_S100000x1_S100000x128_0_1
      (broadcastInDim S100000x1 ![0] bcast_S100000_S100000x1_0 n2))

/-- The aggregation of KTerms is this one at the two factors computed from the edge lists. -/
theorem aggK_eq (a7 a8 : IVec S1600000 32) (h : GcnSpec.Mat 100000 128) :
    aggK a7 a8 h = aggWith a7 a8 (normSrcK a7) (normDstK a8) h := rfl

/-- The column variances as a one-row array, with the integer correction as an argument. -/
def varRowWith (y : GcnSpec.Mat 100000 128) (n : IVec S_ 32) : FVec Ideal S1x128 .f32 :=
  select
    (broadcastInDim S1x128 ![] bcast_S_S1x128
      (cmpf (F := Ideal) (φ := .f32) (s := S_) .ogt
        (subf (F := Ideal) (φ := .f32) (s := S_) (constant (F := Ideal) S_ .f32 0x47C35000#32)
          (sitofp (F := Ideal) (s := S_) .f32 n))
        (constant (F := Ideal) S_ .f32 0x00000000#32)))
    (Host.divf (F := Ideal) (φ := .f32) (s := S1x128)
      (broadcastInDim S1x128 ![1] bcast_S128_S1x128_1
        (Host.reduceAdd (F := Ideal) (φ := .f32) (s := S100000x128)
          (mulf (F := Ideal) (φ := .f32) (s := S100000x128)
            (subf (F := Ideal) (φ := .f32) (s := S100000x128) y
              (broadcastInDim S100000x128 ![0, 1] bcast_S1x128_S100000x128_0_1 (meanRowK y)))
            (subf (F := Ideal) (φ := .f32) (s := S100000x128) y
              (broadcastInDim S100000x128 ![0, 1] bcast_S1x128_S100000x128_0_1 (meanRowK y))))
          (constant (F := Ideal) S_ .f32 0x00000000#32)
          reducesTo_S100000x128_S128_d0 h_S_))
      (broadcastInDim S1x128 ![] bcast_S_S1x128
        (subf (F := Ideal) (φ := .f32) (s := S_) (constant (F := Ideal) S_ .f32 0x47C35000#32)
          (sitofp (F := Ideal) (s := S_) .f32 n))))
    (broadcastInDim S1x128 ![] bcast_S_S1x128 (id (constant (F := Ideal) S_ .f32 0x7FC00000#32)))

/-- The variances of KTerms are these at the correction zero. -/
theorem varRowK_eq (y : GcnSpec.Mat 100000 128) : varRowK y = varRowWith y (constantI S_ 32 0#32) := rfl

variable (X : Valuation τ sig (Elt Ideal))

/-! ## The first stretch: the degree factors, the first aggregation, the first bias -/

theorem ops0_v11 : StableHlo.after (hostOps0 (F := Ideal)) X (Proc.devRef .tc main_v11) = normSrcK (X (Proc.devRef .tc main_arg7)) := by
  dsimp only [hostOps0]; after_results; rfl

theorem ops0_v12 : StableHlo.after (hostOps0 (F := Ideal)) X (Proc.devRef .tc main_v12) = normDstK (X (Proc.devRef .tc main_arg8)) := by
  dsimp only [hostOps0]; after_results; rfl

set_option maxHeartbeats 1000000 in
theorem ops0_v28 : StableHlo.after (hostOps0 (F := Ideal)) X (Proc.devRef .tc main_v28)
    = aggK (X (Proc.devRef .tc main_arg7)) (X (Proc.devRef .tc main_arg8)) (X (Proc.devRef .tc main_arg0)) := by
  dsimp only [hostOps0]; after_results_simp; rfl

/-- The bias as a one-row array, read at column `q`: the bias at `q`. -/
theorem ops0_v29 (q : Fin 128) :
    StableHlo.after (hostOps0 (F := Ideal)) X (Proc.devRef .tc main_v29) (ix2 (0 : Fin 1) q) = X (Proc.devRef .tc main_arg2) (ix1 q) := by
  dsimp only [hostOps0]
  after_results
  show shapeCast S1x128 (X (Proc.devRef .tc main_arg2)) shapeCasts_S128_S1x128 (ix2 (0 : Fin 1) q) = _
  exact shapeCast_apply _ _ _ (ix1 q) (by
    rw [Shape.rowMajor_val_two, Shape.rowMajor_val_one]; show q.val = 0 * 128 + q.val; omega)

/-- The buffers this stretch reads or passes on without writing them keep their contents. -/
theorem ops0_kept (b : Ref sig .tc) (hb : b ∈ ([main_arg1, main_arg3, main_arg4, main_arg5, main_arg6, main_arg7, main_arg8] : List (Ref sig .tc))) :
    StableHlo.after (hostOps0 (F := Ideal)) X (Proc.devRef .tc b) = X (Proc.devRef .tc b) := by
  simp only [List.mem_cons, List.not_mem_nil, or_false] at hb
  rcases hb with rfl | rfl | rfl | rfl | rfl | rfl | rfl
  all_goals (dsimp only [hostOps0]; after_results)

/-! ## The column statistics after the first and the second affine region -/

theorem ops1_v34 : StableHlo.after (hostOps1 (F := Ideal)) X (Proc.devRef .tc main_v34) = meanRowK (X (Proc.devRef .tc main_v30)) := by
  dsimp only [hostOps1]; after_results; rfl

theorem ops1_c8 : StableHlo.after (hostOps1 (F := Ideal)) X (Proc.devRef .tc main_c_8) = constantI S_ 32 0#32 := by
  dsimp only [hostOps1]; after_results

/-- The buffers this stretch reads or passes on without writing them keep their contents. -/
theorem ops1_kept (b : Ref sig .tc) (hb : b ∈ ([main_v30, main_v11, main_v12, main_arg3, main_arg4, main_arg5, main_arg6, main_arg7, main_arg8] : List (Ref sig .tc))) :
    StableHlo.after (hostOps1 (F := Ideal)) X (Proc.devRef .tc b) = X (Proc.devRef .tc b) := by
  simp only [List.mem_cons, List.not_mem_nil, or_false] at hb
  rcases hb with rfl | rfl | rfl | rfl | rfl | rfl | rfl | rfl | rfl
  all_goals (dsimp only [hostOps1]; after_results)

set_option maxHeartbeats 1000000 in
theorem ops1_1_v35 : StableHlo.after (hostOps1_1 (F := Ideal)) X (Proc.devRef .tc main_v35)
    = varRowWith (X (Proc.devRef .tc main_v30)) (X (Proc.devRef .tc main_c_8)) := by
  dsimp only [hostOps1_1]; after_results_simp; rfl

/-- The buffers this stretch reads or passes on without writing them keep their contents. -/
theorem ops1_1_kept (b : Ref sig .tc) (hb : b ∈ ([main_v30, main_v34, main_v11, main_v12, main_arg3, main_arg4, main_arg5, main_arg6, main_arg7, main_arg8] : List (Ref sig .tc))) :
    StableHlo.after (hostOps1_1 (F := Ideal)) X (Proc.devRef .tc b) = X (Proc.devRef .tc b) := by
  simp only [List.mem_cons, List.not_mem_nil, or_false] at hb
  rcases hb with rfl | rfl | rfl | rfl | rfl | rfl | rfl | rfl | rfl | rfl
  all_goals (dsimp only [hostOps1_1]; after_results)

theorem ops3_v58 : StableHlo.after (hostOps3 (F := Ideal)) X (Proc.devRef .tc main_v58) = meanRowK (X (Proc.devRef .tc main_v54)) := by
  dsimp only [hostOps3]; after_results; rfl

theorem ops3_c14 : StableHlo.after (hostOps3 (F := Ideal)) X (Proc.devRef .tc main_c_14) = constantI S_ 32 0#32 := by
  dsimp only [hostOps3]; after_results

/-- The buffers this stretch reads or passes on without writing them keep their contents. -/
theorem ops3_kept (b : Ref sig .tc) (hb : b ∈ ([main_v54, main_v11, main_v12, main_arg5, main_arg6, main_arg7, main_arg8] : List (Ref sig .tc))) :
    StableHlo.after (hostOps3 (F := Ideal)) X (Proc.devRef .tc b) = X (Proc.devRef .tc b) := by
  simp only [List.mem_cons, List.not_mem_nil, or_false] at hb
  rcases hb with rfl | rfl | rfl | rfl | rfl | rfl | rfl
  all_goals (dsimp only [hostOps3]; after_results)

set_option maxHeartbeats 1000000 in
theorem ops3_1_v59 : StableHlo.after (hostOps3_1 (F := Ideal)) X (Proc.devRef .tc main_v59)
    = varRowWith (X (Proc.devRef .tc main_v54)) (X (Proc.devRef .tc main_c_14)) := by
  dsimp only [hostOps3_1]; after_results_simp; rfl

/-- The buffers this stretch reads or passes on without writing them keep their contents. -/
theorem ops3_1_kept (b : Ref sig .tc) (hb : b ∈ ([main_v54, main_v58, main_v11, main_v12, main_arg5, main_arg6, main_arg7, main_arg8] : List (Ref sig .tc))) :
    StableHlo.after (hostOps3_1 (F := Ideal)) X (Proc.devRef .tc b) = X (Proc.devRef .tc b) := by
  simp only [List.mem_cons, List.not_mem_nil, or_false] at hb
  rcases hb with rfl | rfl | rfl | rfl | rfl | rfl | rfl | rfl
  all_goals (dsimp only [hostOps3_1]; after_results)

/-! ## The second and the third aggregation, with their biases -/

set_option maxHeartbeats 1000000 in
theorem ops2_v52 : StableHlo.after (hostOps2 (F := Ideal)) X (Proc.devRef .tc main_v52)
    = aggWith (X (Proc.devRef .tc main_arg7)) (X (Proc.devRef .tc main_arg8)) (X (Proc.devRef .tc main_v11)) (X (Proc.devRef .tc main_v12)) (X (Proc.devRef .tc main_v36)) := by
  dsimp only [hostOps2]; after_results_simp; rfl

/-- The bias as a one-row array, read at column `q`: the bias at `q`. -/
theorem ops2_v53 (q : Fin 128) :
    StableHlo.after (hostOps2 (F := Ideal)) X (Proc.devRef .tc main_v53) (ix2 (0 : Fin 1) q) = X (Proc.devRef .tc main_arg4) (ix1 q) := by
  dsimp only [hostOps2]
  after_results
  show shapeCast S1x128 (X (Proc.devRef .tc main_arg4)) shapeCasts_S128_S1x128 (ix2 (0 : Fin 1) q) = _
  exact shapeCast_apply _ _ _ (ix1 q) (by
    rw [Shape.rowMajor_val_two, Shape.rowMajor_val_one]; show q.val = 0 * 128 + q.val; omega)

/-- The buffers this stretch reads or passes on without writing them keep their contents. -/
theorem ops2_kept (b : Ref sig .tc) (hb : b ∈ ([main_arg3, main_v11, main_v12, main_arg5, main_arg6, main_arg7, main_arg8] : List (Ref sig .tc))) :
    StableHlo.after (hostOps2 (F := Ideal)) X (Proc.devRef .tc b) = X (Proc.devRef .tc b) := by
  simp only [List.mem_cons, List.not_mem_nil, or_false] at hb
  rcases hb with rfl | rfl | rfl | rfl | rfl | rfl | rfl
  all_goals (dsimp only [hostOps2]; after_results)

set_option maxHeartbeats 1000000 in
theorem ops4_v76 : StableHlo.after (hostOps4 (F := Ideal)) X (Proc.devRef .tc main_v76)
    = aggWith (X (Proc.devRef .tc main_arg7)) (X (Proc.devRef .tc main_arg8)) (X (Proc.devRef .tc main_v11)) (X (Proc.devRef .tc main_v12)) (X (Proc.devRef .tc main_v60)) := by
  dsimp only [hostOps4]; after_results_simp; rfl

/-- The bias as a one-row array, read at column `q`: the bias at `q`. -/
theorem ops4_v77 (q : Fin 64) :
    StableHlo.after (hostOps4 (F := Ideal)) X (Proc.devRef .tc main_v77) (ix2 (0 : Fin 1) q) = X (Proc.devRef .tc main_arg6) (ix1 q) := by
  dsimp only [hostOps4]
  after_results
  show shapeCast S1x64 (X (Proc.devRef .tc main_arg6)) shapeCasts_S64_S1x64 (ix2 (0 : Fin 1) q) = _
  exact shapeCast_apply _ _ _ (ix1 q) (by
    rw [Shape.rowMajor_val_two, Shape.rowMajor_val_one]; show q.val = 0 * 64 + q.val; omega)

/-- The buffers this stretch reads or passes on without writing them keep their contents. -/
theorem ops4_kept (b : Ref sig .tc) (hb : b ∈ ([main_arg5] : List (Ref sig .tc))) :
    StableHlo.after (hostOps4 (F := Ideal)) X (Proc.devRef .tc b) = X (Proc.devRef .tc b) := by
  simp only [List.mem_cons, List.not_mem_nil, or_false] at hb
  rcases hb with rfl
  all_goals (dsimp only [hostOps4]; after_results)

end Cert.KernelIdeal.KValue

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.RegionAffine0.lean ====
/-
  Layer 0's matrix-product region: the grid walks the 100000 rows in ten blocks of 10000; at each point the body
  multiplies the block of rows by the whole weight matrix, adds the bias row to every row and clamps at zero. So the
  result array ends holding `max (a · w + b) 0` of the arrays the region finds, entry by entry: the sum over the 128
  positions of a row against a column is the same whether the rows are taken ten thousand at a time or all at once.
-/
import proofs.«117376_j33208687133526_1_alg».proof.Proof.Gen.KernelIdeal.Frame
import proofs.«117376_j33208687133526_1_alg».proof.Proof.GcnSpec
import proofs.«117376_j33208687133526_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat Cfg Window)
open Idealize.SL.Sem

namespace Cert.KernelIdeal.Layers.R0

theorem hz : (![0, 0] : Fin 2 → Nat) = fun _ => 0 := funext fun a => by fin_cases a <;> rfl

theorem plain128 : PlainMatmul.IsPlain dot_S10000x128_S128x128_S10000x128_1_0_0_1_n_n := ⟨rfl, rfl, rfl, rfl, rfl, rfl⟩

theorem pay_apply (x0 : Vec Ideal S10000x128 .f32) (x1 : Vec Ideal S128x128 .f32) (x2 : Vec Ideal S1x128 .f32)
    (r : Fin 10000) (q : Fin 128) :
    k0_pay1 x0 x1 x2 (ix2 r q)
      = max ((∑ k : Fin 128, x0 (ix2 r k) * x1 (ix2 k q)) + x2 (ix2 (0 : Fin 1) q)) (Ideal.ofBits .f32 0x00000000#32) := by
  unfold k0_pay1
  rw [maximumf_apply, addf_apply, broadcast_apply]
  have hm : matmul (F := Ideal) dot_S10000x128_S128x128_S10000x128_1_0_0_1_n_n none
      (truncf (F := Ideal) FTy.bf16 (shapeCast S10000x128 x0 shapeCasts_S10000x128_S10000x128) bitsLt_bf16_f32)
      (truncf (F := Ideal) FTy.bf16 x1 bitsLt_bf16_f32) (constant (F := Ideal) S10000x128 FTy.f32 0x00000000#32) (ix2 r q)
      = ∑ k : Fin 128, x0 (ix2 r k) * x1 (ix2 k q) := by
    refine (PlainMatmul.apply plain128 none _ _ r q).trans ?_
    refine Finset.sum_congr rfl fun k _ => ?_
    rw [truncf_apply, truncf_apply, shapeCast_self]
  have hb : broadcastTo S10000x128 (shapeCast S1x128 x2 shapeCasts_S1x128_S1x128) broadcasts_S1x128_S10000x128 (ix2 r q)
      = x2 (ix2 (0 : Fin 1) q) := by
    rw [shapeCast_self]
    exact broadcastTo_1b_ab_apply x2 _ r q
  rw [hm, hb]
  rfl

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The features' block at point `t` is rows `10000 t … 10000 t + 9999` of the array. -/
theorem blk_a (c : Dev nD) (t : Fin cfg0.N) (r : Fin 10000) (k : Fin 128) (p : Fin 100000)
    (hp : p.val = t.val * 10000 + r.val) :
    iblk0 V c 0 t (ix2 r k) = V c main_v28 (ix2 p k) := by
  obtain ⟨e0, e1, -⟩ := idx t
  show V c main_v28 (((cfg0.win 0).blk t).view.emb (ix2 r k)) = V c main_v28 (ix2 p k)
  refine congrArg (V c main_v28) (funext fun a => Fin.ext ?_)
  match a with
  | ⟨0, _⟩ => show win0_0.index t (0 : Fin 2) * 10000 + 1 * r.val = p.val; rw [e0, hp]; omega
  | ⟨1, _⟩ => show win0_0.index t (1 : Fin 2) * 128 + 1 * k.val = k.val; rw [e1]; omega

/-- The weights' block at every point is the whole matrix. -/
theorem blk_w (c : Dev nD) (t : Fin cfg0.N) (k : Fin 128) (q : Fin 128) :
    iblk0 V c 1 t (ix2 k q) = V c main_arg1 (ix2 k q) := by
  obtain ⟨-, -, e2, e3, -⟩ := idx t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias's block at every point is the whole row. -/
theorem blk_b (c : Dev nD) (t : Fin cfg0.N) (q : Fin 128) :
    iblk0 V c 2 t (ix2 (0 : Fin 1) q) = V c main_v29 (ix2 (0 : Fin 1) q) := by
  obtain ⟨-, -, -, -, e4, e5, -⟩ := idx t
  show V c main_v29 (((cfg0.win 2).blk t).view.emb (ix2 (0 : Fin 1) q)) = V c main_v29 (ix2 (0 : Fin 1) q)
  refine congrArg (V c main_v29) (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- What point `t` writes back is block `t` of the affine layer of the arrays the region finds. -/
theorem flushed (c : Dev nD) (t : Fin cfg0.N) :
    (dat0 (F := Ideal) V c).flushed 3 t = ((cfg0.win 3).blk t).view.read (Elt Ideal)
      (GcnSpec.affineRelu (V c main_v28) (V c main_arg1) (fun q => V c main_v29 (ix2 0 q))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨-, -, -, -, -, -, e6, e7⟩ := idx t
  have ht : t.val < 10 := Nat.lt_of_lt_of_eq t.isLt N_0
  funext j
  obtain ⟨r, q, rfl⟩ : ∃ (r : Fin 10000) (q : Fin 128), j = ix2 r q := ⟨j 0, j 1, eq_ix2 j⟩
  have hr := r.isLt
  have hemb : ((cfg0.win 3).blk t).view.emb (ix2 r q) = ix2 (⟨t.val * 10000 + r.val, by omega⟩ : Fin 100000) q := by
    funext a; apply Fin.ext
    match a with
    | ⟨0, _⟩ => show win0_3.index t (0 : Fin 2) * 10000 + 1 * r.val = t.val * 10000 + r.val; rw [e6]; omega
    | ⟨1, _⟩ => show win0_3.index t (1 : Fin 2) * 128 + 1 * q.val = q.val; rw [e7]; omega
  show k0_pay1 (iblk0 V c 0 t) (iblk0 V c 1 t) (iblk0 V c 2 t) (ix2 r q)
    = GcnSpec.affineRelu (V c main_v28) (V c main_arg1) (fun q => V c main_v29 (ix2 0 q)) (((cfg0.win 3).blk t).view.emb (ix2 r q))
  rw [hemb, GcnSpec.affineRelu_ix2]
  refine (pay_apply _ _ _ r q).trans ?_
  unfold GcnSpec.affineAt
  rw [blk_b V c t q]
  refine congrArg (fun s => max (s + V c main_v29 (ix2 (0 : Fin 1) q)) (Ideal.ofBits .f32 0x00000000#32)) ?_
  refine Finset.sum_congr rfl fun k _ => ?_
  rw [blk_a V c t r k ⟨t.val * 10000 + r.val, by omega⟩ rfl, blk_w V c t k q]

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v30).slice (win0_3.rect t)).set ↔ _
  rw [View.set_slice_whole, Rect.mem_set_unit]
  exact Iff.rfl

/-- Every row of the result lies in the block of the point `row / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 10000 < cfg0.N := Nat.lt_of_lt_of_eq (by omega : (i 0).val / 10000 < 10) N_0.symm
  obtain ⟨-, -, -, -, -, -, e6, e7⟩ := idx ⟨(i 0).val / 10000, hlt⟩
  refine ⟨⟨(i 0).val / 10000, hlt⟩, flush0_3 _, ?_⟩
  rw [mem_blk]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hlt⟩ (1 : Fin 2) * 128 ≤ (i 1).val
      ∧ (i 1).val < win0_3.index ⟨(i 0).val / 10000, hlt⟩ (1 : Fin 2) * 128 + 128
    rw [e7]; omega

/-- The result array after the region: the affine layer, clamped at zero, of the arrays the region finds. -/
theorem final (c : Dev nD) :
    (dat0 (F := Ideal) V c).arrAt 3 cfg0.N
      = GcnSpec.affineRelu (V c main_v28) (V c main_arg1) (fun q => V c main_v29 (ix2 0 q)) :=
  (dat0 (F := Ideal) V c).arrAt_eq_of_cover 3 _ (fun t _ => flushed V c t) cover

end Cert.KernelIdeal.Layers.R0
end
-- ==== Proof.RegionNorm1.lean ====
/-
  Layer 0's normalisation region: the grid walks the 100000 rows in ten blocks of 10000; at each point the body
  subtracts the row of column means from every row of the block and multiplies by the row of `(variance + ε)^(−1/2)`.
  The two rows of statistics are the same at every point, so the result array ends holding the column-wise shift and
  scale of the whole array the region finds.
-/
import proofs.«117376_j33208687133526_1_alg».proof.Proof.Gen.KernelIdeal.Frame
import proofs.«117376_j33208687133526_1_alg».proof.Proof.GcnSpec
import proofs.«117376_j33208687133526_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat Cfg Window)
open Idealize.SL.Sem

namespace Cert.KernelIdeal.Layers.R1

theorem hz : (![0, 0] : Fin 2 → Nat) = fun _ => 0 := funext fun a => by fin_cases a <;> rfl

/-- The body's stored value at the entry `(r, q)`: the feature shifted by the column's mean and scaled by
    `(variance + ε)^(−1/2)`; the mean and the variance are one row each, read at column `q`. -/
theorem pay_apply (v0 : Vec Ideal S1x128 .f32) (v5 : Vec Ideal S10000x128 .f32) (v7 : Vec Ideal S1x128 .f32)
    (r : Fin 10000) (q : Fin 128) :
    k1_pay1 v0 v5 v7 (ix2 r q)
      = (v5 (ix2 r q) - v7 (ix2 (0 : Fin 1) q)) * Ideal.rsqrt (v0 (ix2 (0 : Fin 1) q) + Ideal.ofBits .f32 0x3727C5AC#32) := by
  unfold k1_pay1
  rw [mulf_apply, subf_apply]
  have h1 : broadcastTo S10000x128 (shapeCast S1x128 v7 shapeCasts_S1x128_S1x128) broadcasts_S1x128_S10000x128 (ix2 r q)
      = v7 (ix2 (0 : Fin 1) q) := by
    rw [shapeCast_self]
    exact broadcastTo_1b_ab_apply v7 _ r q
  have h2 : broadcastTo S10000x128 (rsqrt (F := Ideal) (addf (F := Ideal) (shapeCast S1x128 v0 shapeCasts_S1x128_S1x128)
        (broadcast S1x128 (Scalar.ofBits (F := Ideal) .f32 0x3727C5AC#32)))) broadcasts_S1x128_S10000x128 (ix2 r q)
      = Ideal.rsqrt (v0 (ix2 (0 : Fin 1) q) + Ideal.ofBits .f32 0x3727C5AC#32) := by
    rw [shapeCast_self]
    refine (broadcastTo_1b_ab_apply _ _ r q).trans ?_
    rfl
  rw [shapeCast_self, h1, h2]

theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The features' block at point `t` is rows `10000 t … 10000 t + 9999` of the array. -/
theorem blk_y (c : Dev nD) (t : Fin cfg1.N) (r : Fin 10000) (q : Fin 128) (p : Fin 100000)
    (hp : p.val = t.val * 10000 + r.val) :
    iblk1 V c 0 t (ix2 r q) = V c main_v30 (ix2 p q) := by
  obtain ⟨e0, e1, -⟩ := idx t
  show V c main_v30 (((cfg1.win 0).blk t).view.emb (ix2 r q)) = V c main_v30 (ix2 p q)
  refine congrArg (V c main_v30) (funext fun a => Fin.ext ?_)
  match a with
  | ⟨0, _⟩ => show win1_0.index t (0 : Fin 2) * 10000 + 1 * r.val = p.val; rw [e0, hp]; omega
  | ⟨1, _⟩ => show win1_0.index t (1 : Fin 2) * 128 + 1 * q.val = q.val; rw [e1]; omega

/-- The means' block at every point is the whole row. -/
theorem blk_mean (c : Dev nD) (t : Fin cfg1.N) (q : Fin 128) :
    iblk1 V c 1 t (ix2 (0 : Fin 1) q) = V c main_v34 (ix2 (0 : Fin 1) q) := by
  obtain ⟨-, -, e2, e3, -⟩ := idx t
  show V c main_v34 (((cfg1.win 1).blk t).view.emb (ix2 (0 : Fin 1) q)) = V c main_v34 (ix2 (0 : Fin 1) q)
  refine congrArg (V c main_v34) (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- The variances' block at every point is the whole row. -/
theorem blk_var (c : Dev nD) (t : Fin cfg1.N) (q : Fin 128) :
    iblk1 V c 2 t (ix2 (0 : Fin 1) q) = V c main_v35 (ix2 (0 : Fin 1) q) := by
  obtain ⟨-, -, -, -, e4, e5, -⟩ := idx t
  show V c main_v35 (((cfg1.win 2).blk t).view.emb (ix2 (0 : Fin 1) q)) = V c main_v35 (ix2 (0 : Fin 1) q)
  refine congrArg (V c main_v35) (funext fun a => Fin.ext ?_)
  match a with
  | ⟨0, _⟩ => show win1_2.index t (0 : Fin 2) * 1 + 1 * 0 = 0; rw [e4]
  | ⟨1, _⟩ => show win1_2.index t (1 : Fin 2) * 128 + 1 * q.val = q.val; rw [e5]; omega

/-- What point `t` writes back is block `t` of the normalised array. -/
theorem flushed (c : Dev nD) (t : Fin cfg1.N) :
    (dat1 (F := Ideal) V c).flushed 3 t = ((cfg1.win 3).blk t).view.read (Elt Ideal)
      (GcnSpec.bnorm (V c main_v30) (fun q => V c main_v34 (ix2 0 q)) (fun q => V c main_v35 (ix2 0 q))) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz]
  obtain ⟨-, -, -, -, -, -, e6, e7⟩ := idx t
  have ht : t.val < 10 := Nat.lt_of_lt_of_eq t.isLt N_1
  funext j
  obtain ⟨r, q, rfl⟩ : ∃ (r : Fin 10000) (q : Fin 128), j = ix2 r q := ⟨j 0, j 1, eq_ix2 j⟩
  have hr := r.isLt
  have hemb : ((cfg1.win 3).blk t).view.emb (ix2 r q) = ix2 (⟨t.val * 10000 + r.val, by omega⟩ : Fin 100000) q := by
    funext a; apply Fin.ext
    match a with
    | ⟨0, _⟩ => show win1_3.index t (0 : Fin 2) * 10000 + 1 * r.val = t.val * 10000 + r.val; rw [e6]; omega
    | ⟨1, _⟩ => show win1_3.index t (1 : Fin 2) * 128 + 1 * q.val = q.val; rw [e7]; omega
  show k1_pay1 (iblk1 V c 2 t) (iblk1 V c 0 t) (iblk1 V c 1 t) (ix2 r q)
    = GcnSpec.bnorm (V c main_v30) (fun q => V c main_v34 (ix2 0 q)) (fun q => V c main_v35 (ix2 0 q))
        (((cfg1.win 3).blk t).view.emb (ix2 r q))
  rw [hemb, GcnSpec.bnorm_ix2]
  refine (pay_apply _ _ _ r q).trans ?_
  rw [blk_y V c t r q ⟨t.val * 10000 + r.val, by omega⟩ rfl, blk_mean V c t q, blk_var V c t q]

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v36).slice (win1_3.rect t)).set ↔ _
  rw [View.set_slice_whole, Rect.mem_set_unit]
  exact Iff.rfl

/-- Every row of the result lies in the block of the point `row / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 10000 < cfg1.N := Nat.lt_of_lt_of_eq (by omega : (i 0).val / 10000 < 10) N_1.symm
  obtain ⟨-, -, -, -, -, -, e6, e7⟩ := idx ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val
      ∧ (i 1).val < win1_3.index ⟨(i 0).val / 10000, hlt⟩ (1 : Fin 2) * 128 + 128
    rw [e7]; omega

/-- The result array after the region: every column of the features shifted by its mean and scaled by
    `(variance + ε)^(−1/2)`. -/
theorem final (c : Dev nD) :
    (dat1 (F := Ideal) V c).arrAt 3 cfg1.N
      = GcnSpec.bnorm (V c main_v30) (fun q => V c main_v34 (ix2 0 q)) (fun q => V c main_v35 (ix2 0 q)) :=
  (dat1 (F := Ideal) V c).arrAt_eq_of_cover 3 _ (fun t _ => flushed V c t) cover

end Cert.KernelIdeal.Layers.R1
end
-- ==== Proof.RegionAffine2.lean ====
/-
  Layer 1's matrix-product region: the grid walks the 100000 rows in ten blocks of 10000; at each point the body
  multiplies the block of rows by the whole weight matrix, adds the bias row to every row and clamps at zero. So the
  result array ends holding `max (a · w + b) 0` of the arrays the region finds, entry by entry: the sum over the 128
  positions of a row against a column is the same whether the rows are taken ten thousand at a time or all at once.
-/
import proofs.«117376_j33208687133526_1_alg».proof.Proof.Gen.KernelIdeal.Frame
import proofs.«117376_j33208687133526_1_alg».proof.Proof.GcnSpec
import proofs.«117376_j33208687133526_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat Cfg Window)
open Idealize.SL.Sem

namespace Cert.KernelIdeal.Layers.R2

theorem hz : (![0, 0] : Fin 2 → Nat) = fun _ => 0 := funext fun a => by fin_cases a <;> rfl

theorem plain128 : PlainMatmul.IsPlain dot_S10000x128_S128x128_S10000x128_1_0_0_1_n_n := ⟨rfl, rfl, rfl, rfl, rfl, rfl⟩

theorem pay_apply (x0 : Vec Ideal S10000x128 .f32) (x1 : Vec Ideal S128x128 .f32) (x2 : Vec Ideal S1x128 .f32)
    (r : Fin 10000) (q : Fin 128) :
    k2_pay1 x0 x1 x2 (ix2 r q)
      = max ((∑ k : Fin 128, x0 (ix2 r k) * x1 (ix2 k q)) + x2 (ix2 (0 : Fin 1) q)) (Ideal.ofBits .f32 0x00000000#32) := by
  unfold k2_pay1
  rw [maximumf_apply, addf_apply, broadcast_apply]
  have hm : matmul (F := Ideal) dot_S10000x128_S128x128_S10000x128_1_0_0_1_n_n none
      (truncf (F := Ideal) FTy.bf16 (shapeCast S10000x128 x0 shapeCasts_S10000x128_S10000x128) bitsLt_bf16_f32)
      (truncf (F := Ideal) FTy.bf16 x1 bitsLt_bf16_f32) (constant (F := Ideal) S10000x128 FTy.f32 0x00000000#32) (ix2 r q)
      = ∑ k : Fin 128, x0 (ix2 r k) * x1 (ix2 k q) := by
    refine (PlainMatmul.apply plain128 none _ _ r q).trans ?_
    refine Finset.sum_congr rfl fun k _ => ?_
    rw [truncf_apply, truncf_apply, shapeCast_self]
  have hb : broadcastTo S10000x128 (shapeCast S1x128 x2 shapeCasts_S1x128_S1x128) broadcasts_S1x128_S10000x128 (ix2 r q)
      = x2 (ix2 (0 : Fin 1) q) := by
    rw [shapeCast_self]
    exact broadcastTo_1b_ab_apply x2 _ r q
  rw [hm, hb]
  rfl

theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The features' block at point `t` is rows `10000 t … 10000 t + 9999` of the array. -/
theorem blk_a (c : Dev nD) (t : Fin cfg2.N) (r : Fin 10000) (k : Fin 128) (p : Fin 100000)
    (hp : p.val = t.val * 10000 + r.val) :
    iblk2 V c 0 t (ix2 r k) = V c main_v52 (ix2 p k) := by
  obtain ⟨e0, e1, -⟩ := idx t
  show V c main_v52 (((cfg2.win 0).blk t).view.emb (ix2 r k)) = V c main_v52 (ix2 p k)
  refine congrArg (V c main_v52) (funext fun a => Fin.ext ?_)
  match a with
  | ⟨0, _⟩ => show win2_0.index t (0 : Fin 2) * 10000 + 1 * r.val = p.val; rw [e0, hp]; omega
  | ⟨1, _⟩ => show win2_0.index t (1 : Fin 2) * 128 + 1 * k.val = k.val; rw [e1]; omega

/-- The weights' block at every point is the whole matrix. -/
theorem blk_w (c : Dev nD) (t : Fin cfg2.N) (k : Fin 128) (q : Fin 128) :
    iblk2 V c 1 t (ix2 k q) = V c main_arg3 (ix2 k q) := by
  obtain ⟨-, -, e2, e3, -⟩ := idx t
  show V c main_arg3 (((cfg2.win 1).blk t).view.emb (ix2 k q)) = V c main_arg3 (ix2 k q)
  refine congrArg (V c main_arg3) (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- The bias's block at every point is the whole row. -/
theorem blk_b (c : Dev nD) (t : Fin cfg2.N) (q : Fin 128) :
    iblk2 V c 2 t (ix2 (0 : Fin 1) q) = V c main_v53 (ix2 (0 : Fin 1) q) := by
  obtain ⟨-, -, -, -, e4, e5, -⟩ := idx t
  show V c main_v53 (((cfg2.win 2).blk t).view.emb (ix2 (0 : Fin 1) q)) = V c main_v53 (ix2 (0 : Fin 1) q)
  refine congrArg (V c main_v53) (funext fun a => Fin.ext ?_)
  match a with
  | ⟨0, _⟩ => show win2_2.index t (0 : Fin 2) * 1 + 1 * 0 = 0; rw [e4]
  | ⟨1, _⟩ => show win2_2.index t (1 : Fin 2) * 128 + 1 * q.val = q.val; rw [e5]; omega

/-- What point `t` writes back is block `t` of the affine layer of the arrays the region finds. -/
theorem flushed (c : Dev nD) (t : Fin cfg2.N) :
    (dat2 (F := Ideal) V c).flushed 3 t = ((cfg2.win 3).blk t).view.read (Elt Ideal)
      (GcnSpec.affineRelu (V c main_v52) (V c main_arg3) (fun q => V c main_v53 (ix2 0 q))) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  obtain ⟨-, -, -, -, -, -, e6, e7⟩ := idx t
  have ht : t.val < 10 := Nat.lt_of_lt_of_eq t.isLt N_2
  funext j
  obtain ⟨r, q, rfl⟩ : ∃ (r : Fin 10000) (q : Fin 128), j = ix2 r q := ⟨j 0, j 1, eq_ix2 j⟩
  have hr := r.isLt
  have hemb : ((cfg2.win 3).blk t).view.emb (ix2 r q) = ix2 (⟨t.val * 10000 + r.val, by omega⟩ : Fin 100000) q := by
    funext a; apply Fin.ext
    match a with
    | ⟨0, _⟩ => show win2_3.index t (0 : Fin 2) * 10000 + 1 * r.val = t.val * 10000 + r.val; rw [e6]; omega
    | ⟨1, _⟩ => show win2_3.index t (1 : Fin 2) * 128 + 1 * q.val = q.val; rw [e7]; omega
  show k2_pay1 (iblk2 V c 0 t) (iblk2 V c 1 t) (iblk2 V c 2 t) (ix2 r q)
    = GcnSpec.affineRelu (V c main_v52) (V c main_arg3) (fun q => V c main_v53 (ix2 0 q)) (((cfg2.win 3).blk t).view.emb (ix2 r q))
  rw [hemb, GcnSpec.affineRelu_ix2]
  refine (pay_apply _ _ _ r q).trans ?_
  unfold GcnSpec.affineAt
  rw [blk_b V c t q]
  refine congrArg (fun s => max (s + V c main_v53 (ix2 (0 : Fin 1) q)) (Ideal.ofBits .f32 0x00000000#32)) ?_
  refine Finset.sum_congr rfl fun k _ => ?_
  rw [blk_a V c t r k ⟨t.val * 10000 + r.val, by omega⟩ rfl, blk_w V c t k q]

/-- An index of the result array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v54).slice (win2_3.rect t)).set ↔ _
  rw [View.set_slice_whole, Rect.mem_set_unit]
  exact Iff.rfl

/-- Every row of the result lies in the block of the point `row / 10000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 10000 < cfg2.N := Nat.lt_of_lt_of_eq (by omega : (i 0).val / 10000 < 10) N_2.symm
  obtain ⟨-, -, -, -, -, -, e6, e7⟩ := idx ⟨(i 0).val / 10000, hlt⟩
  refine ⟨⟨(i 0).val / 10000, hlt⟩, flush2_3 _, ?_⟩
  rw [mem_blk]
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, hlt⟩ (1 : Fin 2) * 128 ≤ (i 1).val
      ∧ (i 1).val < win2_3.index ⟨(i 0).val / 10000, hlt⟩ (1 : Fin 2) * 128 + 128
    rw [e7]; omega

/-- The result array after the region: the affine layer, clamped at zero, of the arrays the region finds. -/
theorem final (c : Dev nD) :
    (dat2 (F := Ideal) V c).arrAt 3 cfg2.N
      = GcnSpec.affineRelu (V c main_v52) (V c main_arg3) (fun q => V c main_v53 (ix2 0 q)) :=
  (dat2 (F := Ideal) V c).arrAt_eq_of_cover 3 _ (fun t _ => flushed V c t) cover

end Cert.KernelIdeal.Layers.R2
end
-- ==== Proof.RegionNorm3.lean ====
/-
  Layer 1's normalisation region: the grid walks the 100000 rows in ten blocks of 10000; at each point the body
  subtracts the row of column means from every row of the block and multiplies by the row of `(variance + ε)^(−1/2)`.
  The two rows of statistics are the same at every point, so the result array ends holding the column-wise shift and
  scale of the whole array the region finds.
-/
import proofs.«117376_j33208687133526_1_alg».proof.Proof.Gen.KernelIdeal.Frame
import proofs.«117376_j33208687133526_1_alg».proof.Proof.GcnSpec
import proofs.«117376_j33208687133526_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat Cfg Window)
open Idealize.SL.Sem

namespace Cert.KernelIdeal.Layers.R3

theorem hz : (![0, 0] : Fin 2 → Nat) = fun _ => 0 := funext fun a => by fin_cases a <;> rfl

/-- The body's stored value at the entry `(r, q)`: the feature shifted by the column's mean and scaled by
    `(variance + ε)^(−1/2)`; the mean and the variance are one row each, read at column `q`. -/
theorem pay_apply (v0 : Vec Ideal S1x128 .f32) (v5 : Vec Ideal S10000x128 .f32) (v7 : Vec Ideal S1x128 .f32)
    (r : Fin 10000) (q : Fin 128) :
    k3_pay1 v0 v5 v7 (ix2 r q)
      = (v5 (ix2 r q) - v7 (ix2 (0 : Fin 1) q)) * Ideal.rsqrt (v0 (ix2 (0 : Fin 1) q) + Ideal.ofBits .f32 0x3727C5AC#32) := by
  unfold k3_pay1
  rw [mulf_apply, subf_apply]
  have h1 : broadcastTo S10000x128 (shapeCast S1x128 v7 shapeCasts_S1x128_S1x128) broadcasts_S1x128_S10000x128 (ix2 r q)
      = v7 (ix2 (0 : Fin 1) q) := by
    rw [shapeCast_self]
    exact broadcastTo_1b_ab_apply v7 _ r q
  have h2 : broadcastTo S10000x128 (rsqrt (F := Ideal) (addf (F := Ideal) (shapeCast S1x128 v0 shapeCasts_S1x128_S1x128)
        (broadcast S1x128 (Scalar.ofBits (F := Ideal) .f32 0x3727C5AC#32)))) broadcasts_S1x128_S10000x128 (ix2 r q)
      = Ideal.rsqrt (v0 (ix2 (0 : Fin 1) q) + Ideal.ofBits .f32 0x3727C5AC#32) := by
    rw [shapeCast_self]
    refine (broadcastTo_1b_ab_apply _ _ r q).trans ?_
    rfl
  rw [shapeCast_self, h1, h2]

theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The features' block at point `t` is rows `10000 t … 10000 t + 9999` of the array. -/
theorem blk_y (c : Dev nD) (t : Fin cfg3.N) (r : Fin 10000) (q : Fin 128) (p : Fin 100000)
    (hp : p.val = t.val * 10000 + r.val) :
    iblk3 V c 0 t (ix2 r q) = V c main_v54 (ix2 p q) := by
  obtain ⟨e0, e1, -⟩ := idx t
  show V c main_v54 (((cfg3.win 0).blk t).view.emb (ix2 r q)) = V c main_v54 (ix2 p q)
  refine congrArg (V c main_v54) (funext fun a => Fin.ext ?_)
  match a with
  | ⟨0, _⟩ => show win3_0.index t (0 : Fin 2) * 10000 + 1 * r.val = p.val; rw [e0, hp]; omega
  | ⟨1, _⟩ => show win3_0.index t (1 : Fin 2) * 128 + 1 * q.val = q.val; rw [e1]; omega

/-- The means' block at every point is the whole row. -/
theorem blk_mean (c : Dev nD) (t : Fin cfg3.N) (q : Fin 128) :
    iblk3 V c 1 t (ix2 (0 : Fin 1) q) = V c main_v58 (ix2 (0 : Fin 1) q) := by
  obtain ⟨-, -, e2, e3, -⟩ := idx t
  show V c main_v58 (((cfg3.win 1).blk t).view.emb (ix2 (0 : Fin 1) q)) = V c main_v58 (ix2 (0 : Fin 1) q)
  refine congrArg (V c main_v58) (funext fun a => Fin.ext ?_)
  match a with
  | ⟨0, _⟩ => show win3_1.index t (0 : Fin 2) * 1 + 1 * 0 = 0; rw [e2]
  | ⟨1, _⟩ => show win3_1.index t (1 : Fin 2) * 128 + 1 * q.val = q.val; rw [e3]; omega

/-- The variances' block at every point is the whole row. -/
theorem blk_var (c : Dev nD) (t : Fin cfg3.N) (q : Fin 128) :
    iblk3 V c 2 t (ix2 (0 : Fin 1) q) = V c main_v59 (ix2 (0 : Fin 1) q) := by
  obtain ⟨-, -, -, -, e4, e5, -⟩ := idx t
  show V c main_v59 (((cfg3.win 2).blk t).view.emb (ix2 (0 : Fin 1) q)) = V c main_v59 (ix2 (0 : Fin 1) q)
  refine congrArg (V c main_v59) (funext fun a => Fin.ext ?_)
  match a with
  | ⟨0, _⟩ => show win3_2.index t (0 : Fin 2) * 1 + 1 * 0 = 0; rw [e4]
  | ⟨1, _⟩ => show win3_2.index t (1 : Fin 2) * 128 + 1 * q.val = q.val; rw [e5]; omega

/-- What point `t` writes back is block `t` of the normalised array. -/
theorem flushed (c : Dev nD) (t : Fin cfg3.N) :
    (dat3 (F := Ideal) V c).flushed 3 t = ((cfg3.win 3).blk t).view.read (Elt Ideal)
      (GcnSpec.bnorm (V c main_v54) (fun q => V c main_v58 (ix2 0 q)) (fun q => V c main_v59 (ix2 0 q))) := by
  show (cfg3.win 3).cut (grid3.coords t) ((dat3 V c).after 3 t) = _
  rw [after3_3]
  unfold out3_3
  rw [View.canon_unit_zero hz]
  simp only [View.ld_unit_zero (S := S10000x128) hz, View.ld_unit_zero (S := S1x128) hz]
  obtain ⟨-, -, -, -, -, -, e6, e7⟩ := idx t
  have ht : t.val < 10 := Nat.lt_of_lt_of_eq t.isLt N_3
  funext j
  obtain ⟨r, q, rfl⟩ : ∃ (r : Fin 10000) (q : Fin 128), j = ix2 r q := ⟨j 0, j 1, eq_ix2 j⟩
  have hr := r.isLt
  have hemb : ((cfg3.win 3).blk t).view.emb (ix2 r q) = ix2 (⟨t.val * 10000 + r.val, by omega⟩ : Fin 100000) q := by
    funext a; apply Fin.ext
    match a with
    | ⟨0, _⟩ => show win3_3.index t (0 : Fin 2) * 10000 + 1 * r.val = t.val * 10000 + r.val; rw [e6]; omega
    | ⟨1, _⟩ => show win3_3.index t (1 : Fin 2) * 128 + 1 * q.val = q.val; rw [e7]; omega
  show k3_pay1 (iblk3 V c 2 t) (iblk3 V c 0 t) (iblk3 V c 1 t) (ix2 r q)
    = GcnSpec.bnorm (V c main_v54) (fun q => V c main_v58 (ix2 0 q)) (fun q => V c main_v59 (ix2 0 q))
        (((cfg3.win 3).blk t).view.emb (ix2 r q))
  rw [hemb, GcnSpec.bnorm_ix2]
  refine (pay_apply _ _ _ r q).trans ?_
  rw [blk_y V c t r q ⟨t.val * 10000 + r.val, by omega⟩ rfl, blk_mean V c t q, blk_var V c t q]

/-- An index of the result array is in point `t`'s block iff each coordinate is in the block's range on its axis. -/
theorem mem_blk (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v60).slice (win3_3.rect t)).set ↔ _
  rw [View.set_slice_whole, Rect.mem_set_unit]
  exact Iff.rfl

/-- Every row of the result lies in the block of the point `row / 10000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hlt : (i 0).val / 10000 < cfg3.N := Nat.lt_of_lt_of_eq (by omega : (i 0).val / 10000 < 10) N_3.symm
  obtain ⟨-, -, -, -, -, -, e6, e7⟩ := idx ⟨(i 0).val / 10000, hlt⟩
  refine ⟨⟨(i 0).val / 10000, hlt⟩, flush3_3 _, ?_⟩
  rw [mem_blk]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, hlt⟩ (1 : Fin 2) * 128 ≤ (i 1).val
      ∧ (i 1).val < win3_3.index ⟨(i 0).val / 10000, hlt⟩ (1 : Fin 2) * 128 + 128
    rw [e7]; omega

/-- The result array after the region: every column of the features shifted by its mean and scaled by
    `(variance + ε)^(−1/2)`. -/
theorem final (c : Dev nD) :
    (dat3 (F := Ideal) V c).arrAt 3 cfg3.N
      = GcnSpec.bnorm (V c main_v54) (fun q => V c main_v58 (ix2 0 q)) (fun q => V c main_v59 (ix2 0 q)) :=
  (dat3 (F := Ideal) V c).arrAt_eq_of_cover 3 _ (fun t _ => flushed V c t) cover

end Cert.KernelIdeal.Layers.R3
end
-- ==== Proof.RegionAffine4.lean ====
/-
  The last layer's matrix-product region: the grid walks the 100000 rows in ten blocks of 10000; at each point the
  body multiplies the block of rows by the whole 128 × 64 weight matrix and adds the bias row to every row. So the
  result array ends holding `a · w + b` of the arrays the region finds, entry by entry.
-/
import proofs.«117376_j33208687133526_1_alg».proof.Proof.Gen.KernelIdeal.Frame
import proofs.«117376_j33208687133526_1_alg».proof.Proof.GcnSpec
import proofs.«117376_j33208687133526_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat Cfg Window)
open Idealize.SL.Sem

namespace Cert.KernelIdeal.Layers.R4

theorem hz : (![0, 0] : Fin 2 → Nat) = fun _ => 0 := funext fun a => by fin_cases a <;> rfl

theorem plain64 : PlainMatmul.IsPlain dot_S10000x128_S128x64_S10000x64_1_0_0_1_n_n := ⟨rfl, rfl, rfl, rfl, rfl, rfl⟩

theorem pay_apply (x0 : Vec Ideal S10000x128 .f32) (x1 : Vec Ideal S128x64 .f32) (x2 : Vec Ideal S1x64 .f32)
    (r : Fin 10000) (q : Fin 64) :
    k4_pay1 x0 x1 x2 (ix2 r q) = (∑ k : Fin 128, x0 (ix2 r k) * x1 (ix2 k q)) + x2 (ix2 (0 : Fin 1) q) := by
  unfold k4_pay1
  rw [addf_apply]
  have hm : matmul (F := Ideal) dot_S10000x128_S128x64_S10000x64_1_0_0_1_n_n none
      (truncf (F := Ideal) FTy.bf16 (shapeCast S10000x128 x0 shapeCasts_S10000x128_S10000x128) bitsLt_bf16_f32)
      (truncf (F := Ideal) FTy.bf16 x1 bitsLt_bf16_f32) (constant (F := Ideal) S10000x64 FTy.f32 0x00000000#32) (ix2 r q)
      = ∑ k : Fin 128, x0 (ix2 r k) * x1 (ix2 k q) := by
    refine (PlainMatmul.apply plain64 none _ _ r q).trans ?_
    refine Finset.sum_congr rfl fun k _ => ?_
    rw [truncf_apply, truncf_apply, shapeCast_self]
  have hb : broadcastTo S10000x64 (shapeCast S1x64 x2 shapeCasts_S1x64_S1x64) broadcasts_S1x64_S10000x64 (ix2 r q)
      = x2 (ix2 (0 : Fin 1) q) := by
    rw [shapeCast_self]
    exact broadcastTo_1b_ab_apply x2 _ r q
  rw [hm, hb]

theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- The features' block at point `t` is rows `10000 t … 10000 t + 9999` of the array. -/
theorem blk_a (c : Dev nD) (t : Fin cfg4.N) (r : Fin 10000) (k : Fin 128) (p : Fin 100000)
    (hp : p.val = t.val * 10000 + r.val) :
    iblk4 V c 0 t (ix2 r k) = V c main_v76 (ix2 p k) := by
  obtain ⟨e0, e1, -⟩ := idx t
  show V c main_v76 (((cfg4.win 0).blk t).view.emb (ix2 r k)) = V c main_v76 (ix2 p k)
  refine congrArg (V c main_v76) (funext fun a => Fin.ext ?_)
  match a with
  | ⟨0, _⟩ => show win4_0.index t (0 : Fin 2) * 10000 + 1 * r.val = p.val; rw [e0, hp]; omega
  | ⟨1, _⟩ => show win4_0.index t (1 : Fin 2) * 128 + 1 * k.val = k.val; rw [e1]; omega

/-- The weights' block at every point is the whole matrix. -/
theorem blk_w (c : Dev nD) (t : Fin cfg4.N) (k : Fin 128) (q : Fin 64) :
    iblk4 V c 1 t (ix2 k q) = V c main_arg5 (ix2 k q) := by
  obtain ⟨-, -, e2, e3, -⟩ := idx t
  show V c main_arg5 (((cfg4.win 1).blk t).view.emb (ix2 k q)) = V c main_arg5 (ix2 k q)
  refine congrArg (V c main_arg5) (funext fun a => Fin.ext ?_)
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- The bias's block at every point is the whole row. -/
theorem blk_b (c : Dev nD) (t : Fin cfg4.N) (q : Fin 64) :
    iblk4 V c 2 t (ix2 (0 : Fin 1) q) = V c main_v77 (ix2 (0 : Fin 1) q) := by
  obtain ⟨-, -, -, -, e4, e5, -⟩ := idx t
  show V c main_v77 (((cfg4.win 2).blk t).view.emb (ix2 (0 : Fin 1) q)) = V c main_v77 (ix2 (0 : Fin 1) q)
  refine congrArg (V c main_v77) (funext fun a => Fin.ext ?_)
  match a with
  | ⟨0, _⟩ => show win4_2.index t (0 : Fin 2) * 1 + 1 * 0 = 0; rw [e4]
  | ⟨1, _⟩ => show win4_2.index t (1 : Fin 2) * 64 + 1 * q.val = q.val; rw [e5]; omega

/-- What point `t` writes back is block `t` of the affine layer of the arrays the region finds. -/
theorem flushed (c : Dev nD) (t : Fin cfg4.N) :
    (dat4 (F := Ideal) V c).flushed 3 t = ((cfg4.win 3).blk t).view.read (Elt Ideal)
      (GcnSpec.affine (V c main_v76) (V c main_arg5) (fun q => V c main_v77 (ix2 0 q))) := by
  show (cfg4.win 3).cut (grid4.coords t) ((dat4 V c).after 3 t) = _
  rw [after4_3]
  unfold out4_3
  rw [View.canon_unit_zero hz]
  simp only [View.ld_unit_zero (S := S10000x128) hz, View.ld_unit_zero (S := S128x64) hz, View.ld_unit_zero (S := S1x64) hz]
  obtain ⟨-, -, -, -, -, -, e6, e7⟩ := idx t
  have ht : t.val < 10 := Nat.lt_of_lt_of_eq t.isLt N_4
  funext j
  obtain ⟨r, q, rfl⟩ : ∃ (r : Fin 10000) (q : Fin 64), j = ix2 r q := ⟨j 0, j 1, eq_ix2 j⟩
  have hr := r.isLt
  have hemb : ((cfg4.win 3).blk t).view.emb (ix2 r q) = ix2 (⟨t.val * 10000 + r.val, by omega⟩ : Fin 100000) q := by
    funext a; apply Fin.ext
    match a with
    | ⟨0, _⟩ => show win4_3.index t (0 : Fin 2) * 10000 + 1 * r.val = t.val * 10000 + r.val; rw [e6]; omega
    | ⟨1, _⟩ => show win4_3.index t (1 : Fin 2) * 64 + 1 * q.val = q.val; rw [e7]; omega
  show k4_pay1 (iblk4 V c 0 t) (iblk4 V c 1 t) (iblk4 V c 2 t) (ix2 r q)
    = GcnSpec.affine (V c main_v76) (V c main_arg5) (fun q => V c main_v77 (ix2 0 q)) (((cfg4.win 3).blk t).view.emb (ix2 r q))
  rw [hemb, GcnSpec.affine_ix2]
  refine (pay_apply _ _ _ r q).trans ?_
  unfold GcnSpec.affineAt
  rw [blk_b V c t q]
  refine congrArg (fun s => s + V c main_v77 (ix2 (0 : Fin 1) q)) ?_
  refine Finset.sum_congr rfl fun k _ => ?_
  rw [blk_a V c t r k ⟨t.val * 10000 + r.val, by omega⟩ rfl, blk_w V c t k q]

/-- An index of the result array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v78).slice (win4_3.rect t)).set ↔ _
  rw [View.set_slice_whole, Rect.mem_set_unit]
  exact Iff.rfl

/-- Every row of the result lies in the block of the point `row / 10000`. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hlt : (i 0).val / 10000 < cfg4.N := Nat.lt_of_lt_of_eq (by omega : (i 0).val / 10000 < 10) N_4.symm
  obtain ⟨-, -, -, -, -, -, e6, e7⟩ := idx ⟨(i 0).val / 10000, hlt⟩
  refine ⟨⟨(i 0).val / 10000, hlt⟩, flush4_3 _, ?_⟩
  rw [mem_blk]
  intro a
  match a with
  | ⟨0, _⟩ =>
    show win4_3.index ⟨(i 0).val / 10000, hlt⟩ (0 : Fin 2) * 10000 ≤ (i 0).val
      ∧ (i 0).val < win4_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hlt⟩ (1 : Fin 2) * 64 ≤ (i 1).val
      ∧ (i 1).val < win4_3.index ⟨(i 0).val / 10000, hlt⟩ (1 : Fin 2) * 64 + 64
    rw [e7]; omega

/-- The result array after the region: the affine layer of the arrays the region finds. -/
theorem final (c : Dev nD) :
    (dat4 (F := Ideal) V c).arrAt 3 cfg4.N
      = GcnSpec.affine (V c main_v76) (V c main_arg5) (fun q => V c main_v77 (ix2 0 q)) :=
  (dat4 (F := Ideal) V c).arrAt_eq_of_cover 3 _ (fun t _ => flushed V c t) cover

end Cert.KernelIdeal.Layers.R4
end
-- ==== Proof.RegionFinals.lean ====
/-
  What each of the five kernel regions leaves in its result array, as one whole-array function of the arrays the
  region finds: the three matrix-product regions an affine layer (the first two clamped at zero), the two
  normalisation regions the column-wise shift and scale.
-/
import proofs.«117376_j33208687133526_1_alg».proof.Proof.RegionAffine0
import proofs.«117376_j33208687133526_1_alg».proof.Proof.RegionNorm1
import proofs.«117376_j33208687133526_1_alg».proof.Proof.RegionAffine2
import proofs.«117376_j33208687133526_1_alg».proof.Proof.RegionNorm3
import proofs.«117376_j33208687133526_1_alg».proof.Proof.RegionAffine4

noncomputable section

namespace Cert.KernelIdeal.Layers

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem final0 (c : Dev nD) :
    (dat0 (F := Ideal) V c).arrAt 3 cfg0.N
      = GcnSpec.affineRelu (V c main_v28) (V c main_arg1) (fun q => V c main_v29 (ix2 0 q)) := R0.final V c

theorem final1 (c : Dev nD) :
    (dat1 (F := Ideal) V c).arrAt 3 cfg1.N
      = GcnSpec.bnorm (V c main_v30) (fun q => V c main_v34 (ix2 0 q)) (fun q => V c main_v35 (ix2 0 q)) := R1.final V c

theorem final2 (c : Dev nD) :
    (dat2 (F := Ideal) V c).arrAt 3 cfg2.N
      = GcnSpec.affineRelu (V c main_v52) (V c main_arg3) (fun q => V c main_v53 (ix2 0 q)) := R2.final V c

theorem final3 (c : Dev nD) :
    (dat3 (F := Ideal) V c).arrAt 3 cfg3.N
      = GcnSpec.bnorm (V c main_v54) (fun q => V c main_v58 (ix2 0 q)) (fun q => V c main_v59 (ix2 0 q)) := R3.final V c

theorem final4 (c : Dev nD) :
    (dat4 (F := Ideal) V c).arrAt 3 cfg4.N
      = GcnSpec.affine (V c main_v76) (V c main_arg5) (fun q => V c main_v77 (ix2 0 q)) := R4.final V c

end Cert.KernelIdeal.Layers

end
-- ==== Proof.KStages.lean ====
/-
  The kernel program's result as a value. The fold through the program's stretches and regions is read back boundary by
  boundary: the buffers no operation writes on the way (the edge lists, the weights and biases, the two degree
  factors) are carried to every stretch that reads them; each region's result is its layer of the network applied to
  what the stretch before it left; and the last boundary's contents of the result buffer is the whole network at the
  launched arguments.
-/
import proofs.«117376_j33208687133526_1_alg».proof.Proof.KRun
import proofs.«117376_j33208687133526_1_alg».proof.Proof.KHost
import proofs.«117376_j33208687133526_1_alg».proof.Proof.RegionFinals

set_option maxRecDepth 16384

noncomputable section

namespace Cert.KernelIdeal.KValue

open Cert.KernelIdeal Cert.KernelIdeal.Gen
open Idealize.ShloMosaic Idealize.ShloMosaic.ValueIdx Idealize.ShloMosaic.TcCoe Idealize.SL.Sem

/-! ## Equal arguments, equal layers -/

theorem affineRelu_congr {n k : ℕ} {a a' : GcnSpec.Mat n 128} {w w' : GcnSpec.Mat 128 k} {b b' : Fin k → EReal}
    (ha : a = a') (hw : w = w') (hb : b = b') : GcnSpec.affineRelu a w b = GcnSpec.affineRelu a' w' b' := by
  subst ha hw hb; rfl

theorem affine_congr {n k : ℕ} {a a' : GcnSpec.Mat n 128} {w w' : GcnSpec.Mat 128 k} {b b' : Fin k → EReal}
    (ha : a = a') (hw : w = w') (hb : b = b') : GcnSpec.affine a w b = GcnSpec.affine a' w' b' := by
  subst ha hw hb; rfl

theorem bnorm_congr {n : ℕ} {y y' : GcnSpec.Mat n 128} {μ μ' v v' : Fin 128 → EReal}
    (hy : y = y') (hμ : μ = μ') (hv : v = v') : GcnSpec.bnorm y μ v = GcnSpec.bnorm y' μ' v' := by
  subst hy hμ hv; rfl

theorem aggWith_congr {a7 a7' a8 a8' : IVec S1600000 32} {n1 n1' n2 n2' : FVec Ideal S100000 .f32}
    {h h' : GcnSpec.Mat 100000 128} (h7 : a7 = a7') (h8 : a8 = a8') (hn1 : n1 = n1') (hn2 : n2 = n2') (hh : h = h') :
    aggWith a7 a8 n1 n2 h = aggWith a7' a8' n1' n2' h' := by
  subst h7 h8 hn1 hn2 hh; rfl

theorem varRowWith_congr {y y' : GcnSpec.Mat 100000 128} {n n' : IVec S_ 32} (hy : y = y') (hn : n = n') :
    varRowWith y n = varRowWith y' n' := by
  subst hy hn; rfl

variable (m : (ℓ : Loc nD τ sig) → Buf (Elt Ideal) ℓ) (ρ : Dev nD → PrngReg) (c : Dev nD)

/-! ## The layers at the launched arguments -/

/-- The first affine layer, clamped at zero. -/
abbrev H1 : GcnSpec.Mat 100000 128 :=
  GcnSpec.affineRelu (aggK (m ((c : Thread nD τ).loc main_arg7)) (m ((c : Thread nD τ).loc main_arg8)) (m ((c : Thread nD τ).loc main_arg0))) (m ((c : Thread nD τ).loc main_arg1))
    (fun q => m ((c : Thread nD τ).loc main_arg2) (ix1 q))
/-- The first hidden layer. -/
abbrev N1 : GcnSpec.Mat 100000 128 := GcnSpec.bnorm (H1 m c) (meanK (H1 m c)) (varK (H1 m c))
/-- The second affine layer, clamped at zero. -/
abbrev H2 : GcnSpec.Mat 100000 128 :=
  GcnSpec.affineRelu (aggK (m ((c : Thread nD τ).loc main_arg7)) (m ((c : Thread nD τ).loc main_arg8)) (N1 m c)) (m ((c : Thread nD τ).loc main_arg3))
    (fun q => m ((c : Thread nD τ).loc main_arg4) (ix1 q))
/-- The second hidden layer. -/
abbrev N2 : GcnSpec.Mat 100000 128 := GcnSpec.bnorm (H2 m c) (meanK (H2 m c)) (varK (H2 m c))

/-! ## What the first stretch leaves -/

theorem W1_v11 : W1 m ρ c (Proc.devRef .tc main_v11) = normSrcK (m ((c : Thread nD τ).loc main_arg7)) := ops0_v11 (W0 m ρ c)
theorem W1_v12 : W1 m ρ c (Proc.devRef .tc main_v12) = normDstK (m ((c : Thread nD τ).loc main_arg8)) := ops0_v12 (W0 m ρ c)
theorem W1_arg3 : W1 m ρ c (Proc.devRef .tc main_arg3) = m ((c : Thread nD τ).loc main_arg3) := ops0_kept (W0 m ρ c) main_arg3 (by decide)
theorem W1_arg4 : W1 m ρ c (Proc.devRef .tc main_arg4) = m ((c : Thread nD τ).loc main_arg4) := ops0_kept (W0 m ρ c) main_arg4 (by decide)
theorem W1_arg5 : W1 m ρ c (Proc.devRef .tc main_arg5) = m ((c : Thread nD τ).loc main_arg5) := ops0_kept (W0 m ρ c) main_arg5 (by decide)
theorem W1_arg6 : W1 m ρ c (Proc.devRef .tc main_arg6) = m ((c : Thread nD τ).loc main_arg6) := ops0_kept (W0 m ρ c) main_arg6 (by decide)
theorem W1_arg7 : W1 m ρ c (Proc.devRef .tc main_arg7) = m ((c : Thread nD τ).loc main_arg7) := ops0_kept (W0 m ρ c) main_arg7 (by decide)
theorem W1_arg8 : W1 m ρ c (Proc.devRef .tc main_arg8) = m ((c : Thread nD τ).loc main_arg8) := ops0_kept (W0 m ρ c) main_arg8 (by decide)

/-! ## The buffers carried past the first two regions, and past the next two -/

/-- Neither of the first two regions nor the two stretches between them writes any of these buffers. -/
theorem W5_carry (b : Ref sig .tc)
    (hb : b ∈ ([main_v11, main_v12, main_arg3, main_arg4, main_arg5, main_arg6, main_arg7, main_arg8] : List (Ref sig .tc))) :
    W5 m ρ c (Proc.devRef .tc b) = W1 m ρ c (Proc.devRef .tc b) := by
  simp only [List.mem_cons, List.not_mem_nil, or_false] at hb
  rcases hb with rfl | rfl | rfl | rfl | rfl | rfl | rfl | rfl
  all_goals exact (W5_of_ne m ρ c _ (by decide)).trans ((ops1_1_kept (W3 m ρ c) _ (by decide)).trans
    ((ops1_kept (W2 m ρ c) _ (by decide)).trans (W2_of_ne m ρ c _ (by decide))))

/-- Neither the third and fourth regions nor the stretches around them write any of these buffers. -/
theorem W10_carry (b : Ref sig .tc)
    (hb : b ∈ ([main_v11, main_v12, main_arg5, main_arg6, main_arg7, main_arg8] : List (Ref sig .tc))) :
    W10 m ρ c (Proc.devRef .tc b) = W5 m ρ c (Proc.devRef .tc b) := by
  simp only [List.mem_cons, List.not_mem_nil, or_false] at hb
  rcases hb with rfl | rfl | rfl | rfl | rfl | rfl
  all_goals exact (W10_of_ne m ρ c _ (by decide)).trans ((ops3_1_kept (W8 m ρ c) _ (by decide)).trans
    ((ops3_kept (W7 m ρ c) _ (by decide)).trans ((W7_of_ne m ρ c _ (by decide)).trans
      (ops2_kept (W5 m ρ c) _ (by decide)))))

theorem W5_v11 : W5 m ρ c (Proc.devRef .tc main_v11) = normSrcK (m ((c : Thread nD τ).loc main_arg7)) :=
  (W5_carry m ρ c main_v11 (by decide)).trans (W1_v11 m ρ c)
theorem W5_v12 : W5 m ρ c (Proc.devRef .tc main_v12) = normDstK (m ((c : Thread nD τ).loc main_arg8)) :=
  (W5_carry m ρ c main_v12 (by decide)).trans (W1_v12 m ρ c)
theorem W5_arg3 : W5 m ρ c (Proc.devRef .tc main_arg3) = m ((c : Thread nD τ).loc main_arg3) :=
  (W5_carry m ρ c main_arg3 (by decide)).trans (W1_arg3 m ρ c)
theorem W5_arg4 : W5 m ρ c (Proc.devRef .tc main_arg4) = m ((c : Thread nD τ).loc main_arg4) :=
  (W5_carry m ρ c main_arg4 (by decide)).trans (W1_arg4 m ρ c)
theorem W5_arg5 : W5 m ρ c (Proc.devRef .tc main_arg5) = m ((c : Thread nD τ).loc main_arg5) :=
  (W5_carry m ρ c main_arg5 (by decide)).trans (W1_arg5 m ρ c)
theorem W5_arg6 : W5 m ρ c (Proc.devRef .tc main_arg6) = m ((c : Thread nD τ).loc main_arg6) :=
  (W5_carry m ρ c main_arg6 (by decide)).trans (W1_arg6 m ρ c)
theorem W5_arg7 : W5 m ρ c (Proc.devRef .tc main_arg7) = m ((c : Thread nD τ).loc main_arg7) :=
  (W5_carry m ρ c main_arg7 (by decide)).trans (W1_arg7 m ρ c)
theorem W5_arg8 : W5 m ρ c (Proc.devRef .tc main_arg8) = m ((c : Thread nD τ).loc main_arg8) :=
  (W5_carry m ρ c main_arg8 (by decide)).trans (W1_arg8 m ρ c)

theorem W10_v11 : W10 m ρ c (Proc.devRef .tc main_v11) = normSrcK (m ((c : Thread nD τ).loc main_arg7)) :=
  (W10_carry m ρ c main_v11 (by decide)).trans (W5_v11 m ρ c)
theorem W10_v12 : W10 m ρ c (Proc.devRef .tc main_v12) = normDstK (m ((c : Thread nD τ).loc main_arg8)) :=
  (W10_carry m ρ c main_v12 (by decide)).trans (W5_v12 m ρ c)
theorem W10_arg5 : W10 m ρ c (Proc.devRef .tc main_arg5) = m ((c : Thread nD τ).loc main_arg5) :=
  (W10_carry m ρ c main_arg5 (by decide)).trans (W5_arg5 m ρ c)
theorem W10_arg6 : W10 m ρ c (Proc.devRef .tc main_arg6) = m ((c : Thread nD τ).loc main_arg6) :=
  (W10_carry m ρ c main_arg6 (by decide)).trans (W5_arg6 m ρ c)
theorem W10_arg7 : W10 m ρ c (Proc.devRef .tc main_arg7) = m ((c : Thread nD τ).loc main_arg7) :=
  (W10_carry m ρ c main_arg7 (by decide)).trans (W5_arg7 m ρ c)
theorem W10_arg8 : W10 m ρ c (Proc.devRef .tc main_arg8) = m ((c : Thread nD τ).loc main_arg8) :=
  (W10_carry m ρ c main_arg8 (by decide)).trans (W5_arg8 m ρ c)

/-! ## The first hidden layer -/

/-- The first region's result: the first affine layer of the aggregated input, clamped at zero. -/
theorem val_v30 : W2 m ρ c (Proc.devRef .tc main_v30) = H1 m c := by
  refine (W2_arr m ρ c 3).trans ((Layers.final0 (V1 m ρ) c).trans ?_)
  exact affineRelu_congr (ops0_v28 (W0 m ρ c)) (ops0_kept (W0 m ρ c) main_arg1 (by decide))
    (funext fun q => ops0_v29 (W0 m ρ c) q)

/-- It is still there when the second region is entered. -/
theorem val_v30_at4 : W4 m ρ c (Proc.devRef .tc main_v30) = H1 m c :=
  (ops1_1_kept (W3 m ρ c) main_v30 (by decide)).trans ((ops1_kept (W2 m ρ c) main_v30 (by decide)).trans (val_v30 m ρ c))

/-- Its column means. -/
theorem val_v34 : W4 m ρ c (Proc.devRef .tc main_v34) = meanRowK (H1 m c) :=
  (ops1_1_kept (W3 m ρ c) main_v34 (by decide)).trans ((ops1_v34 (W2 m ρ c)).trans (congrArg meanRowK (val_v30 m ρ c)))

/-- Its column variances. -/
theorem val_v35 : W4 m ρ c (Proc.devRef .tc main_v35) = varRowK (H1 m c) := by
  refine (ops1_1_v35 (W3 m ρ c)).trans ?_
  rw [varRowK_eq]
  exact varRowWith_congr ((ops1_kept (W2 m ρ c) main_v30 (by decide)).trans (val_v30 m ρ c)) (ops1_c8 (W2 m ρ c))

/-- The second region's result: the first hidden layer. -/
theorem val_v36 : W5 m ρ c (Proc.devRef .tc main_v36) = N1 m c := by
  refine (W5_arr m ρ c 3).trans ((Layers.final1 (V4 m ρ) c).trans ?_)
  exact bnorm_congr (val_v30_at4 m ρ c) (funext fun q => congrFun (val_v34 m ρ c) (ix2 (0 : Fin 1) q))
    (funext fun q => congrFun (val_v35 m ρ c) (ix2 (0 : Fin 1) q))

/-! ## The second hidden layer -/

/-- The second aggregation. -/
theorem val_v52 : W6 m ρ c (Proc.devRef .tc main_v52) = aggK (m ((c : Thread nD τ).loc main_arg7)) (m ((c : Thread nD τ).loc main_arg8)) (N1 m c) := by
  refine (ops2_v52 (W5 m ρ c)).trans ?_
  rw [aggK_eq]
  exact aggWith_congr (W5_arg7 m ρ c) (W5_arg8 m ρ c) (W5_v11 m ρ c) (W5_v12 m ρ c) (val_v36 m ρ c)

/-- The third region's result: the second affine layer, clamped at zero. -/
theorem val_v54 : W7 m ρ c (Proc.devRef .tc main_v54) = H2 m c := by
  refine (W7_arr m ρ c 3).trans ((Layers.final2 (V6 m ρ) c).trans ?_)
  exact affineRelu_congr (val_v52 m ρ c) ((ops2_kept (W5 m ρ c) main_arg3 (by decide)).trans (W5_arg3 m ρ c))
    (funext fun q => (ops2_v53 (W5 m ρ c) q).trans (congrFun (W5_arg4 m ρ c) (ix1 q)))

/-- It is still there when the fourth region is entered. -/
theorem val_v54_at9 : W9 m ρ c (Proc.devRef .tc main_v54) = H2 m c :=
  (ops3_1_kept (W8 m ρ c) main_v54 (by decide)).trans ((ops3_kept (W7 m ρ c) main_v54 (by decide)).trans (val_v54 m ρ c))

/-- Its column means. -/
theorem val_v58 : W9 m ρ c (Proc.devRef .tc main_v58) = meanRowK (H2 m c) :=
  (ops3_1_kept (W8 m ρ c) main_v58 (by decide)).trans ((ops3_v58 (W7 m ρ c)).trans (congrArg meanRowK (val_v54 m ρ c)))

/-- Its column variances. -/
theorem val_v59 : W9 m ρ c (Proc.devRef .tc main_v59) = varRowK (H2 m c) := by
  refine (ops3_1_v59 (W8 m ρ c)).trans ?_
  rw [varRowK_eq]
  exact varRowWith_congr ((ops3_kept (W7 m ρ c) main_v54 (by decide)).trans (val_v54 m ρ c)) (ops3_c14 (W7 m ρ c))

/-- The fourth region's result: the second hidden layer. -/
theorem val_v60 : W10 m ρ c (Proc.devRef .tc main_v60) = N2 m c := by
  refine (W10_arr m ρ c 3).trans ((Layers.final3 (V9 m ρ) c).trans ?_)
  exact bnorm_congr (val_v54_at9 m ρ c) (funext fun q => congrFun (val_v58 m ρ c) (ix2 (0 : Fin 1) q))
    (funext fun q => congrFun (val_v59 m ρ c) (ix2 (0 : Fin 1) q))

/-! ## The last layer -/

/-- The third aggregation. -/
theorem val_v76 : W11 m ρ c (Proc.devRef .tc main_v76) = aggK (m ((c : Thread nD τ).loc main_arg7)) (m ((c : Thread nD τ).loc main_arg8)) (N2 m c) := by
  refine (ops4_v76 (W10 m ρ c)).trans ?_
  rw [aggK_eq]
  exact aggWith_congr (W10_arg7 m ρ c) (W10_arg8 m ρ c) (W10_v11 m ρ c) (W10_v12 m ρ c) (val_v60 m ρ c)

/-- The last region's result, the program's result: the whole network at the launched arguments. -/
theorem val_v78 : W12 m ρ c (Proc.devRef .tc main_v78)
    = GcnSpec.net (aggK (m ((c : Thread nD τ).loc main_arg7)) (m ((c : Thread nD τ).loc main_arg8))) meanK varK
        (m ((c : Thread nD τ).loc main_arg0)) (m ((c : Thread nD τ).loc main_arg1)) (fun q => m ((c : Thread nD τ).loc main_arg2) (ix1 q))
        (m ((c : Thread nD τ).loc main_arg3)) (fun q => m ((c : Thread nD τ).loc main_arg4) (ix1 q))
        (m ((c : Thread nD τ).loc main_arg5)) (fun q => m ((c : Thread nD τ).loc main_arg6) (ix1 q)) := by
  refine (W12_arr m ρ c 3).trans ((Layers.final4 (V11 m ρ) c).trans ?_)
  refine (affine_congr (val_v76 m ρ c) ((ops4_kept (W10 m ρ c) main_arg5 (by decide)).trans (W10_arg5 m ρ c))
    (funext fun q => (ops4_v77 (W10 m ρ c) q).trans (congrFun (W10_arg6 m ρ c) (ix1 q)))).trans ?_
  rfl

/-- THE KERNEL PROGRAM'S RUN WITH ITS VALUE: every weakly fair execution from a memory with zero counters terminates,
    nothing faulting, with the result buffer at the network of the launched arguments and every argument array as
    launched. -/
theorem run_value : θ_run defs (onTc (τ := τ) (main (F := Ideal))) ⟨m, fun _ => 0, ρ⟩ (fun r => ∀ c : Dev nD,
      r.2.mem ((c.tc : Thread nD τ).loc main_v78)
        = GcnSpec.net (aggK (m ((c.tc : Thread nD τ).loc main_arg7)) (m ((c.tc : Thread nD τ).loc main_arg8))) meanK varK
            (m ((c.tc : Thread nD τ).loc main_arg0)) (m ((c.tc : Thread nD τ).loc main_arg1))
            (fun q => m ((c.tc : Thread nD τ).loc main_arg2) (ix1 q))
            (m ((c.tc : Thread nD τ).loc main_arg3)) (fun q => m ((c.tc : Thread nD τ).loc main_arg4) (ix1 q))
            (m ((c.tc : Thread nD τ).loc main_arg5)) (fun q => m ((c.tc : Thread nD τ).loc main_arg6) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (val_v78 m ρ c), (h c).2⟩) (run_W12 m ρ)

end Cert.KernelIdeal.KValue

end
-- ==== Proof.RefOps.lean ====
/-
  The reference program's host operations, in order, as eleven consecutive stretches: the degree factors; then
  per layer the aggregation along the edges, the affine map, and (after the first two) the column statistics
  and the normalisation. Each call of a module-local function is listed as that function's operations over the
  call's own buffers. For each stretch: every operation touches device buffers only, the list of the buffers
  the stretch writes, and that a buffer outside that list keeps its contents through the stretch.
-/
import proofs.«117376_j33208687133526_1_alg».proof.ReferenceIdeal
import proofs.«117376_j33208687133526_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The two degree factors: ones added up at the edges' source (destination) indices from zero, the maximum with one, the power −1/2. -/
abbrev opsNorm : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg7 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x00000000#32),
    StableHlo.unary main_cst_2 main_v6 (broadcastInDim S100000 ![] bcast_S_S100000 : (⟨S_, .f32⟩ : BufTy).Contents (Elt F) → (⟨S100000, .f32⟩ : BufTy).Contents (Elt F)),
    StableHlo.unary main_arg8 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v0 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v8 main_v9 main_v10 (maximumf : (⟨S100000, .f32⟩ : BufTy).Contents (Elt F) → (⟨S100000, .f32⟩ : BufTy).Contents (Elt F) → (⟨S100000, .f32⟩ : BufTy).Contents (Elt F)),
    StableHlo.unary main_v5 main_v11 (Host.rsqrt : (⟨S100000, .f32⟩ : BufTy).Contents (Elt F) → (⟨S100000, .f32⟩ : BufTy).Contents (Elt F)),
    StableHlo.unary main_v10 main_v12 (Host.rsqrt : (⟨S100000, .f32⟩ : BufTy).Contents (Elt F) → (⟨S100000, .f32⟩ : BufTy).Contents (Elt F)) ]

theorem opsNorm_sub : (opsNorm : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub ..⟩

/-- The buffers this stretch writes. -/
abbrev opsNorm_W : List (Ref sig .tc) := [main_cst, main_v0, main_cst_0, main_v1, main_v2, main_v3, main_cst_1, main_v4, main_v5, main_cst_2, main_v6, main_v7, main_v8, main_cst_3, main_v9, main_v10, main_v11, main_v12]

theorem opsNorm_writes : (opsNorm : List (HloOp τ sig (Elt F))).Forall fun op =>
    op.writes ⊆ (opsNorm_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsNorm_keep (V : Valuation τ sig (Elt F)) (r : Ref sig .tc) (h : r ∉ opsNorm_W) :
    after (opsNorm (F := F)) V (Proc.devRef .tc r) = V (Proc.devRef .tc r) :=
  after_of_writes_sub opsNorm V opsNorm_writes h

/-- The first aggregation, of the input features: rows scaled by the source factor, gathered at the edges' sources (a negative index wrapped once), added up at the edges' destinations from zero, rows scaled by the destination factor. -/
abbrev opsAgg0 : List (HloOp τ sig (Elt F)) :=
  [ StableHlo.unary main_v11 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v14 main_v15 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_arg7 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v18 (broadcastInDim S1600000 ![] bcast_S_S1600000 : (⟨S_, .i32⟩ : BufTy).Contents (Elt F) → (⟨S1600000, .i32⟩ : BufTy).Contents (Elt F)),
    StableHlo.binary main_arg7 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_arg7 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_v15 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_5 (constant S_ .f32 0x00000000#32),
    StableHlo.unary main_cst_5 main_v23 (broadcastInDim S100000x128 ![] bcast_S_S100000x128 : (⟨S_, .f32⟩ : BufTy).Contents (Elt F) → (⟨S100000x128, .f32⟩ : BufTy).Contents (Elt F)),
    StableHlo.unary main_arg8 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v27 main_v28 (mulf : (⟨S100000x128, .f32⟩ : BufTy).Contents (Elt F) → (⟨S100000x128, .f32⟩ : BufTy).Contents (Elt F) → (⟨S100000x128, .f32⟩ : BufTy).Contents (Elt F)) ]

theorem opsAgg0_sub : (opsAgg0 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

/-- The buffers this stretch writes. -/
abbrev opsAgg0_W : List (Ref sig .tc) := [main_v13, main_v14, main_v15, main_c, main_v16, main_v17, main_c_4, main_v18, main_v19, main_v20, main_v21, main_v22, main_cst_5, main_v23, main_v24, main_v25, main_v26, main_v27, main_v28]

theorem opsAgg0_writes : (opsAgg0 : List (HloOp τ sig (Elt F))).Forall fun op =>
    op.writes ⊆ (opsAgg0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAgg0_keep (V : Valuation τ sig (Elt F)) (r : Ref sig .tc) (h : r ∉ opsAgg0_W) :
    after (opsAgg0 (F := F)) V (Proc.devRef .tc r) = V (Proc.devRef .tc r) :=
  after_of_writes_sub opsAgg0 V opsAgg0_writes h

/-- The first affine map and the clamp at zero: the product with the weights, the bias laid along every row (two broadcasts) and added, the maximum with the zero matrix. -/
abbrev opsAff0 : List (HloOp τ sig (Elt F)) :=
  [ StableHlo.binary main_v28 main_arg1 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v32) main_call0.v0 main_call0.v1 maximumf ]

theorem opsAff0_sub : (opsAff0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

/-- The buffers this stretch writes. -/
abbrev opsAff0_W : List (Ref sig .tc) := [main_v29, main_v30, main_v31, main_v32, main_call0_cst, main_call0_v0, main_v33]

theorem opsAff0_writes : (opsAff0 : List (HloOp τ sig (Elt F))).Forall fun op =>
    op.writes ⊆ (opsAff0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAff0_keep (V : Valuation τ sig (Elt F)) (r : Ref sig .tc) (h : r ∉ opsAff0_W) :
    after (opsAff0 (F := F)) V (Proc.devRef .tc r) = V (Proc.devRef .tc r) :=
  after_of_writes_sub opsAff0 V opsAff0_writes h

/-- The first layer's column statistics: each column's sum divided by 100000; and the variance function's body, with its inner selection between the quotient and the not-a-number word. -/
abbrev opsStat0 : List (HloOp τ sig (Elt F)) :=
  [ StableHlo.nullary main_cst_6 (constant S_ .f32 0x00000000#32),
    StableHlo.binary main_v33 main_cst_6 main_v34 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_7 (constant S_ .f32 0x47C35000#32),
    StableHlo.unary main_cst_7 main_v35 (broadcastInDim S128 ![] bcast_S_S128 : (⟨S_, .f32⟩ : BufTy).Contents (Elt F) → (⟨S128, .f32⟩ : BufTy).Contents (Elt F)),
    StableHlo.binary main_v34 main_v35 main_v36 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call1.cst (constant S_ .f32 0x00000000#32),
    StableHlo.TRef.binary (.of main_v33) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v33) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

theorem opsStat0_sub : (opsStat0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers this stretch writes. -/
abbrev opsStat0_W : List (Ref sig .tc) := [main_cst_6, main_v34, main_cst_7, main_v35, main_v36, main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v37]

theorem opsStat0_writes : (opsStat0 : List (HloOp τ sig (Elt F))).Forall fun op =>
    op.writes ⊆ (opsStat0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsStat0_keep (V : Valuation τ sig (Elt F)) (r : Ref sig .tc) (h : r ∉ opsStat0_W) :
    after (opsStat0 (F := F)) V (Proc.devRef .tc r) = V (Proc.devRef .tc r) :=
  after_of_writes_sub opsStat0 V opsStat0_writes h

/-- The first normalisation: the mean laid along every row and subtracted; the variance plus ε, to the power −1/2, laid along every row; the product. -/
abbrev opsBn0 : List (HloOp τ sig (Elt F)) :=
  [ StableHlo.unary main_v36 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v39 main_v40 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v41 (broadcastInDim S128 ![] bcast_S_S128 : (⟨S_, .f32⟩ : BufTy).Contents (Elt F) → (⟨S128, .f32⟩ : BufTy).Contents (Elt F)),
    StableHlo.binary main_v37 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)) ]

theorem opsBn0_sub : (opsBn0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub ..⟩

/-- The buffers this stretch writes. -/
abbrev opsBn0_W : List (Ref sig .tc) := [main_v38, main_v39, main_v40, main_cst_9, main_v41, main_v42, main_v43, main_v44, main_v45, main_v46]

theorem opsBn0_writes : (opsBn0 : List (HloOp τ sig (Elt F))).Forall fun op =>
    op.writes ⊆ (opsBn0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsBn0_keep (V : Valuation τ sig (Elt F)) (r : Ref sig .tc) (h : r ∉ opsBn0_W) :
    after (opsBn0 (F := F)) V (Proc.devRef .tc r) = V (Proc.devRef .tc r) :=
  after_of_writes_sub opsBn0 V opsBn0_writes h

/-- The second aggregation, of the first hidden layer. -/
abbrev opsAgg1 : List (HloOp τ sig (Elt F)) :=
  [ StableHlo.unary main_v11 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x128 ![0, 1] bcast_S100000x1_S100000x128_0_1 : (⟨S100000x1, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.unary main_c_10 main_v50 (broadcastInDim S1600000 ![] bcast_S_S1600000 : (⟨S_, .i32⟩ : BufTy).Contents (Elt F) → (⟨S1600000, .i32⟩ : BufTy).Contents (Elt F)),
    StableHlo.binary main_arg7 main_v50 main_v51 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v52 (broadcastInDim S1600000 ![] bcast_S_S1600000 : (⟨S_, .i32⟩ : BufTy).Contents (Elt F) → (⟨S1600000, .i32⟩ : BufTy).Contents (Elt F)),
    StableHlo.binary main_arg7 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_arg7 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v49 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_12 (constant S_ .f32 0x00000000#32),
    StableHlo.unary main_cst_12 main_v57 (broadcastInDim S100000x128 ![] bcast_S_S100000x128 : (⟨S_, .f32⟩ : BufTy).Contents (Elt F) → (⟨S100000x128, .f32⟩ : BufTy).Contents (Elt F)),
    StableHlo.unary main_arg8 main_v58 (broadcastInDim S1600000x1 ![0] bcast_S1600000_S1600000x1_0 : (⟨S1600000, .i32⟩ : BufTy).Contents (Elt F) → (⟨S1600000x1, .i32⟩ : BufTy).Contents (Elt F)),
    StableHlo.ternary main_v57 main_v58 main_v56 main_v59 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v60 (broadcastInDim S100000x1 ![0] bcast_S100000_S100000x1_0 : (⟨S100000, .f32⟩ : BufTy).Contents (Elt F) → (⟨S100000x1, .f32⟩ : BufTy).Contents (Elt F)),
    StableHlo.unary main_v60 main_v61 (broadcastInDim S100000x128 ![0, 1] bcast_S100000x1_S100000x128_0_1 : (⟨S100000x1, .f32⟩ : BufTy).Contents (Elt F) → (⟨S100000x128, .f32⟩ : BufTy).Contents (Elt F)),
    StableHlo.binary main_v59 main_v61 main_v62 (mulf : (⟨S100000x128, .f32⟩ : BufTy).Contents (Elt F) → (⟨S100000x128, .f32⟩ : BufTy).Contents (Elt F) → (⟨S100000x128, .f32⟩ : BufTy).Contents (Elt F)) ]

theorem opsAgg1_sub : (opsAgg1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

/-- The buffers this stretch writes. -/
abbrev opsAgg1_W : List (Ref sig .tc) := [main_v47, main_v48, main_v49, main_c_10, main_v50, main_v51, main_c_11, main_v52, main_v53, main_v54, main_v55, main_v56, main_cst_12, main_v57, main_v58, main_v59, main_v60, main_v61, main_v62]

theorem opsAgg1_writes : (opsAgg1 : List (HloOp τ sig (Elt F))).Forall fun op =>
    op.writes ⊆ (opsAgg1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAgg1_keep (V : Valuation τ sig (Elt F)) (r : Ref sig .tc) (h : r ∉ opsAgg1_W) :
    after (opsAgg1 (F := F)) V (Proc.devRef .tc r) = V (Proc.devRef .tc r) :=
  after_of_writes_sub opsAgg1 V opsAgg1_writes h

/-- The second affine map and the clamp at zero. -/
abbrev opsAff1 : List (HloOp τ sig (Elt F)) :=
  [ StableHlo.binary main_v62 main_arg3 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v66) main_call2.v0 main_call2.v1 maximumf ]

theorem opsAff1_sub : (opsAff1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

/-- The buffers this stretch writes. -/
abbrev opsAff1_W : List (Ref sig .tc) := [main_v63, main_v64, main_v65, main_v66, main_call2_cst, main_call2_v0, main_v67]

theorem opsAff1_writes : (opsAff1 : List (HloOp τ sig (Elt F))).Forall fun op =>
    op.writes ⊆ (opsAff1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAff1_keep (V : Valuation τ sig (Elt F)) (r : Ref sig .tc) (h : r ∉ opsAff1_W) :
    after (opsAff1 (F := F)) V (Proc.devRef .tc r) = V (Proc.devRef .tc r) :=
  after_of_writes_sub opsAff1 V opsAff1_writes h

/-- The second layer's column statistics. -/
abbrev opsStat1 : List (HloOp τ sig (Elt F)) :=
  [ StableHlo.nullary main_cst_13 (constant S_ .f32 0x00000000#32),
    StableHlo.binary main_v67 main_cst_13 main_v68 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_14 (constant S_ .f32 0x47C35000#32),
    StableHlo.unary main_cst_14 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_15 (constantI S_ 32 0#32),
    StableHlo.TRef.nullary main_call3.cst (constant S_ .f32 0x00000000#32),
    StableHlo.TRef.binary (.of main_v67) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v67) main_call3.v4 main_call3.v5 subf,
    StableHlo.TRef.binary main_call3.v5 main_call3.v5 main_call3.v6 mulf,
    StableHlo.TRef.unary (.of main_c_15) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

theorem opsStat1_sub : (opsStat1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers this stretch writes. -/
abbrev opsStat1_W : List (Ref sig .tc) := [main_cst_13, main_v68, main_cst_14, main_v69, main_v70, main_c_15, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v71]

theorem opsStat1_writes : (opsStat1 : List (HloOp τ sig (Elt F))).Forall fun op =>
    op.writes ⊆ (opsStat1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsStat1_keep (V : Valuation τ sig (Elt F)) (r : Ref sig .tc) (h : r ∉ opsStat1_W) :
    after (opsStat1 (F := F)) V (Proc.devRef .tc r) = V (Proc.devRef .tc r) :=
  after_of_writes_sub opsStat1 V opsStat1_writes h

/-- The second normalisation. -/
abbrev opsBn1 : List (HloOp τ sig (Elt F)) :=
  [ StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v73 main_v74 (subf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)) ]

theorem opsBn1_sub : (opsBn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub ..⟩

/-- The buffers this stretch writes. -/
abbrev opsBn1_W : List (Ref sig .tc) := [main_v72, main_v73, main_v74, main_cst_16, main_v75, main_v76, main_v77, main_v78, main_v79, main_v80]

theorem opsBn1_writes : (opsBn1 : List (HloOp τ sig (Elt F))).Forall fun op =>
    op.writes ⊆ (opsBn1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsBn1_keep (V : Valuation τ sig (Elt F)) (r : Ref sig .tc) (h : r ∉ opsBn1_W) :
    after (opsBn1 (F := F)) V (Proc.devRef .tc r) = V (Proc.devRef .tc r) :=
  after_of_writes_sub opsBn1 V opsBn1_writes h

/-- The third aggregation, of the second hidden layer. -/
abbrev opsAgg2 : List (HloOp τ sig (Elt F)) :=
  [ StableHlo.unary main_v11 main_v81 (broadcastInDim S100000x1 ![0] bcast_S100000_S100000x1_0 : (⟨S100000, .f32⟩ : BufTy).Contents (Elt F) → (⟨S100000x1, .f32⟩ : BufTy).Contents (Elt F)),
    StableHlo.unary main_v81 main_v82 (broadcastInDim S100000x128 ![0, 1] bcast_S100000x1_S100000x128_0_1 : (⟨S100000x1, .f32⟩ : BufTy).Contents (Elt F) → (⟨S100000x128, .f32⟩ : BufTy).Contents (Elt F)),
    StableHlo.binary main_v80 main_v82 main_v83 (mulf : (⟨S100000x128, .f32⟩ : BufTy).Contents (Elt F) → (⟨S100000x128, .f32⟩ : BufTy).Contents (Elt F) → (⟨S100000x128, .f32⟩ : BufTy).Contents (Elt F)),
    StableHlo.nullary main_c_17 (constantI S_ 32 0#32),
    StableHlo.unary main_c_17 main_v84 (broadcastInDim S1600000 ![] bcast_S_S1600000 : (⟨S_, .i32⟩ : BufTy).Contents (Elt F) → (⟨S1600000, .i32⟩ : BufTy).Contents (Elt F)),
    StableHlo.binary main_arg7 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v86 (broadcastInDim S1600000 ![] bcast_S_S1600000 : (⟨S_, .i32⟩ : BufTy).Contents (Elt F) → (⟨S1600000, .i32⟩ : BufTy).Contents (Elt F)),
    StableHlo.binary main_arg7 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_arg7 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_19 (constant S_ .f32 0x00000000#32),
    StableHlo.unary main_cst_19 main_v91 (broadcastInDim S100000x128 ![] bcast_S_S100000x128 : (⟨S_, .f32⟩ : BufTy).Contents (Elt F) → (⟨S100000x128, .f32⟩ : BufTy).Contents (Elt F)),
    StableHlo.unary main_arg8 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x128 ![0, 1] bcast_S100000x1_S100000x128_0_1 : (⟨S100000x1, .f32⟩ : BufTy).Contents (Elt F) → (⟨S100000x128, .f32⟩ : BufTy).Contents (Elt F)),
    StableHlo.binary main_v93 main_v95 main_v96 (mulf : (⟨S100000x128, .f32⟩ : BufTy).Contents (Elt F) → (⟨S100000x128, .f32⟩ : BufTy).Contents (Elt F) → (⟨S100000x128, .f32⟩ : BufTy).Contents (Elt F)) ]

theorem opsAgg2_sub : (opsAgg2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

/-- The buffers this stretch writes. -/
abbrev opsAgg2_W : List (Ref sig .tc) := [main_v81, main_v82, main_v83, main_c_17, main_v84, main_v85, main_c_18, main_v86, main_v87, main_v88, main_v89, main_v90, main_cst_19, main_v91, main_v92, main_v93, main_v94, main_v95, main_v96]

theorem opsAgg2_writes : (opsAgg2 : List (HloOp τ sig (Elt F))).Forall fun op =>
    op.writes ⊆ (opsAgg2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAgg2_keep (V : Valuation τ sig (Elt F)) (r : Ref sig .tc) (h : r ∉ opsAgg2_W) :
    after (opsAgg2 (F := F)) V (Proc.devRef .tc r) = V (Proc.devRef .tc r) :=
  after_of_writes_sub opsAgg2 V opsAgg2_writes h

/-- The last affine map, onto 64 columns: the product with the weights, the bias laid along every row and added. -/
abbrev opsAff2 : List (HloOp τ sig (Elt F)) :=
  [ StableHlo.binary main_v96 main_arg5 main_v97 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v99 main_v100 (addf : (⟨S100000x64, .f32⟩ : BufTy).Contents (Elt F) → (⟨S100000x64, .f32⟩ : BufTy).Contents (Elt F) → (⟨S100000x64, .f32⟩ : BufTy).Contents (Elt F)) ]

theorem opsAff2_sub : (opsAff2 : List (HloOp τ sig (Elt F))).Forall fun op => op.bufs ⊆ tcRefs τ sig :=
  ⟨binary_bufs_sub .., unary_bufs_sub .., unary_bufs_sub .., binary_bufs_sub ..⟩

/-- The buffers this stretch writes. -/
abbrev opsAff2_W : List (Ref sig .tc) := [main_v97, main_v98, main_v99, main_v100]

theorem opsAff2_writes : (opsAff2 : List (HloOp τ sig (Elt F))).Forall fun op =>
    op.writes ⊆ (opsAff2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsAff2_keep (V : Valuation τ sig (Elt F)) (r : Ref sig .tc) (h : r ∉ opsAff2_W) :
    after (opsAff2 (F := F)) V (Proc.devRef .tc r) = V (Proc.devRef .tc r) :=
  after_of_writes_sub opsAff2 V opsAff2_writes h

end Cert.ReferenceIdeal.RefValue

end
-- ==== Proof.RefRun.lean ====
/-
  The reference program's run: @main is the straight line of its host operations (each call replaced by the
  called function's operations over the call's buffers), so every weakly fair execution terminates with every
  buffer at the fold of the operations' results over the launch contents.
-/
import proofs.«117376_j33208687133526_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 169 operations, in order: the eleven stretches one after the other. -/
abbrev ops : List (HloOp τ sig (Elt F)) :=
  opsNorm ++ (opsAgg0 ++ (opsAff0 ++ (opsStat0 ++ (opsBn0 ++ (opsAgg1 ++ (opsAff1 ++ (opsStat1 ++ (opsBn1 ++ (opsAgg2 ++ (opsAff2))))))))))

set_option maxRecDepth 16384 in
set_option maxHeartbeats 4000000 in
/-- @main is that straight line: the three windows and the functions' definitions unfolded at their calls, the
    calls' records at their fields, and the sequencing reassociated. -/
theorem main_eq (c : Dev nD) : main (F := F) c = seq ops := by
  simp only [main, main_part0, main_part1, main_part2, fn_relu.body, fn_var.body, fn_where.body, ops,
    opsNorm, opsAgg0, opsAff0, opsStat0, opsBn0, opsAgg1, opsAff1, opsStat1, opsBn1, opsAgg2, opsAff2, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsNorm_sub, List.forall_append.mpr ⟨opsAgg0_sub, List.forall_append.mpr ⟨opsAff0_sub, List.forall_append.mpr ⟨opsStat0_sub, List.forall_append.mpr ⟨opsBn0_sub, List.forall_append.mpr ⟨opsAgg1_sub, List.forall_append.mpr ⟨opsAff1_sub, List.forall_append.mpr ⟨opsStat1_sub, List.forall_append.mpr ⟨opsBn1_sub, List.forall_append.mpr ⟨opsAgg2_sub, opsAff2_sub⟩⟩⟩⟩⟩⟩⟩⟩⟩⟩

theorem opsNorm_fresh : (opsNorm : List (HloOp τ sig (Elt F))).Forall fun op => op.fresh = ∅ := by
  simp only [List.Forall]; repeat' constructor
theorem opsAgg0_fresh : (opsAgg0 : List (HloOp τ sig (Elt F))).Forall fun op => op.fresh = ∅ := by
  simp only [List.Forall]; repeat' constructor
theorem opsAff0_fresh : (opsAff0 : List (HloOp τ sig (Elt F))).Forall fun op => op.fresh = ∅ := by
  simp only [List.Forall]; repeat' constructor
theorem opsStat0_fresh : (opsStat0 : List (HloOp τ sig (Elt F))).Forall fun op => op.fresh = ∅ := by
  simp only [List.Forall]; repeat' constructor
theorem opsBn0_fresh : (opsBn0 : List (HloOp τ sig (Elt F))).Forall fun op => op.fresh = ∅ := by
  simp only [List.Forall]; repeat' constructor
theorem opsAgg1_fresh : (opsAgg1 : List (HloOp τ sig (Elt F))).Forall fun op => op.fresh = ∅ := by
  simp only [List.Forall]; repeat' constructor
theorem opsAff1_fresh : (opsAff1 : List (HloOp τ sig (Elt F))).Forall fun op => op.fresh = ∅ := by
  simp only [List.Forall]; repeat' constructor
theorem opsStat1_fresh : (opsStat1 : List (HloOp τ sig (Elt F))).Forall fun op => op.fresh = ∅ := by
  simp only [List.Forall]; repeat' constructor
theorem opsBn1_fresh : (opsBn1 : List (HloOp τ sig (Elt F))).Forall fun op => op.fresh = ∅ := by
  simp only [List.Forall]; repeat' constructor
theorem opsAgg2_fresh : (opsAgg2 : List (HloOp τ sig (Elt F))).Forall fun op => op.fresh = ∅ := by
  simp only [List.Forall]; repeat' constructor
theorem opsAff2_fresh : (opsAff2 : List (HloOp τ sig (Elt F))).Forall fun op => op.fresh = ∅ := by
  simp only [List.Forall]; repeat' constructor

/-- No operation of the line allocates: each determines its results. -/
theorem ops_fresh : ∀ op ∈ (ops : List (HloOp τ sig (Elt F))), op.fresh = ∅ :=
  List.forall_iff_forall_mem.mp (List.forall_append.mpr ⟨opsNorm_fresh, List.forall_append.mpr ⟨opsAgg0_fresh, List.forall_append.mpr ⟨opsAff0_fresh, List.forall_append.mpr ⟨opsStat0_fresh, List.forall_append.mpr ⟨opsBn0_fresh, List.forall_append.mpr ⟨opsAgg1_fresh, List.forall_append.mpr ⟨opsAff1_fresh, List.forall_append.mpr ⟨opsStat1_fresh, List.forall_append.mpr ⟨opsBn1_fresh, List.forall_append.mpr ⟨opsAgg2_fresh, opsAff2_fresh⟩⟩⟩⟩⟩⟩⟩⟩⟩⟩)

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefTerms.lean ====
/-
  The reference's own whole-array terms, at the extended reals.

  Each definition below is one stretch of the reference program's host operations, written as the composed
  term of its inputs, operation by operation in the program's order: the two degree factors (a count of the
  edges at each node by a scatter-add of ones, clamped at one from below, to the power −1/2), the aggregation
  of a feature matrix along the edges (scale the rows by the source factor, gather the rows at the edges'
  sources, add them up at the edges' destinations, scale by the destination factor), and the mean and the
  variance of each column of a matrix over its 100000 rows.
-/
import proofs.«117376_j33208687133526_1_alg».proof.ReferenceIdeal
import proofs.«117376_j33208687133526_1_alg».proof.Proof.Gen.ReferenceIdeal
import proofs.«117376_j33208687133526_1_alg».proof.Proof.GcnSpec
import Idealize.ShloMosaic.PureOps.Ideal
import Idealize.ShloMosaic.Lib.ValueIdx

noncomputable section

namespace Cert.ReferenceIdeal.RefValue

open Idealize.ShloMosaic Idealize.ShloMosaic.ValueIdx
open Cert.ReferenceIdeal Cert.ReferenceIdeal.Gen

/-- The source-side degree factor: the number of edges leaving each node (ones added up at the edges' source
    indices, from zero), clamped at one from below, to the power −1/2. -/
def normSrcR (a7 : IVec S1600000 32) : FVec Ideal S100000 .f32 :=
  Host.rsqrt (F := Ideal)
    (maximumf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 a7)
        (broadcastInDim S1600000 ![] bcast_S_S1600000 (constant (F := Ideal) S_ .f32 0x3F800000#32)))
      (broadcastInDim S100000 ![] bcast_S_S100000 (constant (F := Ideal) S_ .f32 0x3F800000#32)))

/-- The destination-side degree factor: the same count at the edges' destination indices. -/
def normDstR (a8 : IVec S1600000 32) : FVec Ideal S100000 .f32 :=
  Host.rsqrt (F := Ideal)
    (maximumf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 a8)
        (broadcastInDim S1600000 ![] bcast_S_S1600000 (constant (F := Ideal) S_ .f32 0x3F800000#32)))
      (broadcastInDim S100000 ![] bcast_S_S100000 (constant (F := Ideal) S_ .f32 0x3F800000#32)))

/-- The aggregation of the feature matrix `h` along the edges: row `p` of `h` scaled by the source factor of
    node `p`; the scaled rows gathered at the edges' source indices (a negative index wrapped once by 100000);
    the gathered rows added up, from zero, at the edges' destination indices; row `p` of the sum scaled by the
    destination factor of node `p`. -/
def aggR (a7 a8 : IVec S1600000 32) (h : GcnSpec.Mat 100000 128) : GcnSpec.Mat 100000 128 :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 a8)
      (Host.gather gather_S100000x128_S1600000x1_S1600000x128_1_0_n_n_0_1_1128
        (mulf (F := Ideal) h
          (broadcastInDim S100000x128 ![0, 1] bcast_S100000x1_S100000x128_0_1
            (broadcastInDim S100000x1 ![0] bcast_S100000_S100000x1_0 (normSrcR a7))))
        (broadcastInDim S1600000x1 ![0] bcast_S1600000_S1600000x1_0
          (select
            (cmpi .slt a7 (broadcastInDim S1600000 ![] bcast_S_S1600000 (constantI S_ 32 0#32)))
            (addi a7 (broadcastInDim S1600000 ![] bcast_S_S1600000 (constantI S_ 32 100000#32)))
            a7))))
    (broadcastInDim S100000x128 ![0, 1] bcast_S100000x1_S100000x128_0_1
      (broadcastInDim S100000x1 ![0] bcast_S100000_S100000x1_0 (normDstR a8)))

/-- The mean of each column of `y`: the column's sum over the rows, from zero, divided by 100000. -/
def meanVecR (y : GcnSpec.Mat 100000 128) : FVec Ideal S128 .f32 :=
  Host.divf (F := Ideal)
      (Host.reduceAdd (F := Ideal) y (constant (F := Ideal) S_ .f32 0x00000000#32) reducesTo_S100000x128_S128_d0 h_S_)
      (broadcastInDim S128 ![] bcast_S_S128 (constant (F := Ideal) S_ .f32 0x47C35000#32))

/-- The mean of column `q` of `y`. -/
def meanR (y : GcnSpec.Mat 100000 128) : Fin 128 → EReal := fun q => meanVecR y (ix1 q)

/-- The variance of each column of `y`: the column's mean as above; the squares of the entries' differences
    from it, summed over the rows from zero; divided by `100000 − 0` (the correction, an integer zero converted),
    where that divisor is positive (else the not-a-number word). -/
def varVecR (y : GcnSpec.Mat 100000 128) : FVec Ideal S128 .f32 :=
  select
      (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32)))
      (Host.divf (F := Ideal)
      (Host.reduceAdd (F := Ideal) (mulf (F := Ideal) (subf (F := Ideal) y (broadcastInDim S100000x128 ![0, 1] bcast_S1x128_S100000x128_0_1 (Host.divf (F := Ideal)
        (broadcastInDim S1x128 ![1] bcast_S128_S1x128_1
          (Host.reduceAdd (F := Ideal) y (constant (F := Ideal) S_ .f32 0x00000000#32) reducesTo_S100000x128_S128_d0 h_S_))
        (broadcastInDim S1x128 ![] bcast_S_S1x128 (constant (F := Ideal) S_ .f32 0x47C35000#32))))) (subf (F := Ideal) y (broadcastInDim S100000x128 ![0, 1] bcast_S1x128_S100000x128_0_1 (Host.divf (F := Ideal)
        (broadcastInDim S1x128 ![1] bcast_S128_S1x128_1
          (Host.reduceAdd (F := Ideal) y (constant (F := Ideal) S_ .f32 0x00000000#32) reducesTo_S100000x128_S128_d0 h_S_))
        (broadcastInDim S1x128 ![] bcast_S_S1x128 (constant (F := Ideal) S_ .f32 0x47C35000#32)))))) (constant (F := Ideal) S_ .f32 0x00000000#32) reducesTo_S100000x128_S128_d0 h_S_)
      (broadcastInDim S128 ![] bcast_S_S128 (subf (F := Ideal) (constant (F := Ideal) S_ .f32 0x47C35000#32) (sitofp (F := Ideal) .f32 (constantI S_ 32 0#32)))))
      (broadcastInDim S128 ![] bcast_S_S128 (id (constant (F := Ideal) S_ .f32 0x7FC00000#32)))

/-- The variance of column `q` of `y`. -/
def varR (y : GcnSpec.Mat 100000 128) : Fin 128 → EReal := fun q => varVecR y (ix1 q)

end Cert.ReferenceIdeal.RefValue

end
-- ==== Proof.RefStageFolded.lean ====
/-
  The folded stretches of the reference read as whole-array terms: after the degree-factor stretch the two
  factor buffers hold the reference's factor terms of the edge arrays; after an aggregation stretch its last
  buffer holds the aggregation term of the factors, the edge arrays and the features going in; after a
  statistics stretch the mean and variance buffers hold the column-mean and column-variance terms of the matrix
  going in. Nothing here looks inside a gather, a scatter-add or a column sum: each equation is the fold of the
  stretch's operations unrolled, against the same composition written as a term.
-/
import proofs.«117376_j33208687133526_1_alg».proof.Proof.RefOps
import proofs.«117376_j33208687133526_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The contents of the reference's buffers, at the extended reals. -/
local notation "Val" => Valuation τ sig (Elt Ideal)

/-- The aggregation along the edges with the two degree factors given: `aggR` is this at the reference's own
    factor terms. -/
def aggT (nS nD : FVec Ideal S100000 .f32) (a7 a8 : IVec S1600000 32) (h : GcnSpec.Mat 100000 128) : GcnSpec.Mat 100000 128 :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 a8)
      (Host.gather gather_S100000x128_S1600000x1_S1600000x128_1_0_n_n_0_1_1128
        (mulf (F := Ideal) h
          (broadcastInDim S100000x128 ![0, 1] bcast_S100000x1_S100000x128_0_1
            (broadcastInDim S100000x1 ![0] bcast_S100000_S100000x1_0 nS)))
        (broadcastInDim S1600000x1 ![0] bcast_S1600000_S1600000x1_0
          (select
            (cmpi .slt a7 (broadcastInDim S1600000 ![] bcast_S_S1600000 (constantI S_ 32 0#32)))
            (addi a7 (broadcastInDim S1600000 ![] bcast_S_S1600000 (constantI S_ 32 100000#32)))
            a7))))
    (broadcastInDim S100000x128 ![0, 1] bcast_S100000x1_S100000x128_0_1
      (broadcastInDim S100000x1 ![0] bcast_S100000_S100000x1_0 nD))

theorem aggT_norm (a7 a8 : IVec S1600000 32) (h : GcnSpec.Mat 100000 128) :
    aggT (normSrcR a7) (normDstR a8) a7 a8 h = aggR a7 a8 h := rfl

attribute [local irreducible] Host.reduceAdd Host.scatterAdd Host.gather

theorem norm_v11 (W : Val) : after (opsNorm (F := Ideal)) W (Proc.devRef .tc main_v11) = normSrcR (W (Proc.devRef .tc main_arg7)) := by
  simp only [opsNorm]
  after_results_simp
  rfl

theorem norm_v12 (W : Val) : after (opsNorm (F := Ideal)) W (Proc.devRef .tc main_v12) = normDstR (W (Proc.devRef .tc main_arg8)) := by
  simp only [opsNorm]
  after_results_simp
  rfl

theorem agg0_v28 (W : Val) : after (opsAgg0 (F := Ideal)) W (Proc.devRef .tc main_v28)
    = aggT (W (Proc.devRef .tc main_v11)) (W (Proc.devRef .tc main_v12)) (W (Proc.devRef .tc main_arg7)) (W (Proc.devRef .tc main_arg8)) (W (Proc.devRef .tc main_arg0)) := by
  simp only [opsAgg0]
  after_results_simp
  rfl

theorem agg1_v62 (W : Val) : after (opsAgg1 (F := Ideal)) W (Proc.devRef .tc main_v62)
    = aggT (W (Proc.devRef .tc main_v11)) (W (Proc.devRef .tc main_v12)) (W (Proc.devRef .tc main_arg7)) (W (Proc.devRef .tc main_arg8)) (W (Proc.devRef .tc main_v46)) := by
  simp only [opsAgg1]
  after_results_simp
  rfl

theorem agg2_v96 (W : Val) : after (opsAgg2 (F := Ideal)) W (Proc.devRef .tc main_v96)
    = aggT (W (Proc.devRef .tc main_v11)) (W (Proc.devRef .tc main_v12)) (W (Proc.devRef .tc main_arg7)) (W (Proc.devRef .tc main_arg8)) (W (Proc.devRef .tc main_v80)) := by
  simp only [opsAgg2]
  after_results_simp
  rfl

theorem stat0_mean (W : Val) : after (opsStat0 (F := Ideal)) W (Proc.devRef .tc main_v36) = meanVecR (W (Proc.devRef .tc main_v33)) := by
  simp only [opsStat0]
  after_results_simp
  rfl

set_option maxRecDepth 16384 in
theorem stat0_var (W : Val) : after (opsStat0 (F := Ideal)) W (Proc.devRef .tc main_v37) = varVecR (W (Proc.devRef .tc main_v33)) := by
  simp only [opsStat0]
  after_results_simp
  rfl

theorem stat1_mean (W : Val) : after (opsStat1 (F := Ideal)) W (Proc.devRef .tc main_v70) = meanVecR (W (Proc.devRef .tc main_v67)) := by
  simp only [opsStat1]
  after_results_simp
  rfl

set_option maxRecDepth 16384 in
theorem stat1_var (W : Val) : after (opsStat1 (F := Ideal)) W (Proc.devRef .tc main_v71) = varVecR (W (Proc.devRef .tc main_v67)) := by
  simp only [opsStat1]
  after_results_simp
  rfl

end Cert.ReferenceIdeal.RefValue

end
-- ==== Proof.RefIndex.lean ====
/-
  The reference's affine maps and normalisations read entry by entry, at the extended reals.

  A host product of a 100000 × 128 matrix with a 128 × c matrix, contracting the one axis with the other and with
  no batch axis, has at the entry (p, q) the sum over k of a(p, k) · w(k, q). A vector laid along every row by the
  two broadcasts (to one row, then down the rows) has at (p, q) its entry q. With the pointwise operations read at
  an entry, the program's "product, plus the bias laid along the rows, clamped at zero" is `GcnSpec.affineRelu`,
  without the clamp `GcnSpec.affine`, and its "minus the mean laid along the rows, times (variance + ε)^(−1/2)
  laid along the rows" is `GcnSpec.bnorm`.
-/
import proofs.«117376_j33208687133526_1_alg».proof.ReferenceIdeal
import proofs.«117376_j33208687133526_1_alg».proof.Proof.Gen.ReferenceIdeal
import proofs.«117376_j33208687133526_1_alg».proof.Proof.GcnSpec
import proofs.«117376_j33208687133526_1_alg».proof.Proof.LibMatmul
import Idealize.ShloMosaic.Lib.KernelVsHost
import Idealize.ShloMosaic.Lib.Pipeline.Value

noncomputable section

namespace Cert.ReferenceIdeal.RefValue

open scoped BigOperators
open Idealize.ShloMosaic Idealize.ShloMosaic.ValueIdx
open Cert.ReferenceIdeal Cert.ReferenceIdeal.Gen

/-- A plain host product at the entry `(p, q)`: the sum over the contracted axis of row `p` of the left operand
    against column `q` of the right one. (The host product is the product accumulated into the zero matrix.) -/
theorem hostDot_apply {M K N : ℕ} {d : DotDims (⟨2, ![M, K]⟩ : Shape) (⟨2, ![K, N]⟩ : Shape) (⟨2, ![M, N]⟩ : Shape)}
    (h : PlainMatmul.IsPlain d) (prec : Option ContractPrecision)
    (lhs : FVec Ideal (⟨2, ![M, K]⟩ : Shape) .f32) (rhs : FVec Ideal (⟨2, ![K, N]⟩ : Shape) .f32) (p : Fin M) (q : Fin N) :
    Host.dotGeneral d prec lhs rhs (ix2 p q) = ∑ k : Fin K, (lhs (ix2 p k) : EReal) * (rhs (ix2 k q) : EReal) :=
  (congrFun (matmul_zero_eq_dotGeneral d prec lhs rhs) (ix2 p q)).symm.trans (PlainMatmul.apply h prec lhs rhs p q)

theorem plain128 : PlainMatmul.IsPlain dot_S100000x128_S128x128_S100000x128_1_0_0_1_n_n :=
  ⟨rfl, rfl, rfl, rfl, rfl, rfl⟩

theorem plain64 : PlainMatmul.IsPlain dot_S100000x128_S128x64_S100000x64_1_0_0_1_n_n :=
  ⟨rfl, rfl, rfl, rfl, rfl, rfl⟩

/-- A vector of `n` entries broadcast to one row and then down `m` rows, at `(p, q)`: its entry `q`. -/
theorem rows_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (p : Fin m) (q : Fin n) :
    broadcastInDim ⟨2, ![m, n]⟩ ![0, 1] h2 (broadcastInDim ⟨2, ![1, n]⟩ ![1] h1 b) (ix2 p q) = b (ix1 q) := by
  refine (broadcastInDim_oneRow_apply h2 _ p q).trans ?_
  refine broadcastInDim_apply ![1] h1 b (ix2 (0 : Fin 1) q) (ix1 q) ?_
  intro a
  fin_cases a
  show q.val = if n = 1 then 0 else q.val
  split_ifs with hn
  · have := q.isLt; omega
  · rfl

/-- The product with the weights, plus the bias laid along every row, clamped at zero from below. -/
theorem affRelu_eq (a : GcnSpec.Mat 100000 128) (w : GcnSpec.Mat 128 128) (b : FVec Ideal S128 .f32) :
    maximumf (F := Ideal)
      (addf (F := Ideal) (Host.dotGeneral (F := Ideal) (φ₁ := .f32) (φ₂ := .f32) dot_S100000x128_S128x128_S100000x128_1_0_0_1_n_n none a w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = GcnSpec.affineRelu a w (fun q => b (ix1 q)) := by
  funext j
  obtain ⟨p, q, rfl⟩ : ∃ (p : Fin 100000) (q : Fin 128), j = ix2 p q := ⟨j 0, j 1, eq_ix2 j⟩
  rw [GcnSpec.affineRelu_ix2]
  show max (Host.dotGeneral (F := Ideal) (φ₁ := .f32) (φ₂ := .f32) dot_S100000x128_S128x128_S100000x128_1_0_0_1_n_n none a w (ix2 p q)
      + broadcastInDim S100000x128 ![0, 1] bcast_S1x128_S100000x128_0_1 (broadcastInDim S1x128 ![1] bcast_S128_S1x128_1 b) (ix2 p q))
      (Ideal.ofBits .f32 0x00000000#32) = _
  rw [hostDot_apply plain128, rows_apply]
  rfl

/-- The product with the last weights, plus the bias laid along every row. -/
theorem aff_eq (a : GcnSpec.Mat 100000 128) (w : GcnSpec.Mat 128 64) (b : FVec Ideal S64 .f32) :
    addf (F := Ideal) (Host.dotGeneral (F := Ideal) (φ₁ := .f32) (φ₂ := .f32) dot_S100000x128_S128x64_S100000x64_1_0_0_1_n_n none a w)
      (broadcastInDim S100000x64 ![0, 1] bcast_S1x64_S100000x64_0_1 (broadcastInDim S1x64 ![1] bcast_S64_S1x64_1 b))
    = GcnSpec.affine a w (fun q => b (ix1 q)) := by
  funext j
  obtain ⟨p, q, rfl⟩ : ∃ (p : Fin 100000) (q : Fin 64), j = ix2 p q := ⟨j 0, j 1, eq_ix2 j⟩
  rw [GcnSpec.affine_ix2]
  show Host.dotGeneral (F := Ideal) (φ₁ := .f32) (φ₂ := .f32) dot_S100000x128_S128x64_S100000x64_1_0_0_1_n_n none a w (ix2 p q)
      + broadcastInDim S100000x64 ![0, 1] bcast_S1x64_S100000x64_0_1 (broadcastInDim S1x64 ![1] bcast_S64_S1x64_1 b) (ix2 p q) = _
  rw [hostDot_apply plain64, rows_apply]
  rfl

/-- Minus the mean laid along every row, times `(variance + ε)^(−1/2)` laid along every row. -/
theorem bnorm_eq (y : GcnSpec.Mat 100000 128) (mu va : FVec Ideal S128 .f32) :
    mulf (F := Ideal)
      (subf (F := Ideal) y
        (broadcastInDim S100000x128 ![0, 1] bcast_S1x128_S100000x128_0_1 (broadcastInDim S1x128 ![1] bcast_S128_S1x128_1 mu)))
      (broadcastInDim S100000x128 ![0, 1] bcast_S1x128_S100000x128_0_1
        (broadcastInDim S1x128 ![1] bcast_S128_S1x128_1
          (Host.rsqrt (F := Ideal)
            (addf (F := Ideal) va (broadcastInDim S128 ![] bcast_S_S128 (constant (F := Ideal) S_ .f32 0x3727C5AC#32))))))
    = GcnSpec.bnorm y (fun q => mu (ix1 q)) (fun q => va (ix1 q)) := by
  funext j
  obtain ⟨p, q, rfl⟩ : ∃ (p : Fin 100000) (q : Fin 128), j = ix2 p q := ⟨j 0, j 1, eq_ix2 j⟩
  rw [GcnSpec.bnorm_ix2]
  show (y (ix2 p q)
      - broadcastInDim S100000x128 ![0, 1] bcast_S1x128_S100000x128_0_1 (broadcastInDim S1x128 ![1] bcast_S128_S1x128_1 mu) (ix2 p q))
      * broadcastInDim S100000x128 ![0, 1] bcast_S1x128_S100000x128_0_1
        (broadcastInDim S1x128 ![1] bcast_S128_S1x128_1
          (Host.rsqrt (F := Ideal)
            (addf (F := Ideal) va (broadcastInDim S128 ![] bcast_S_S128 (constant (F := Ideal) S_ .f32 0x3727C5AC#32))))) (ix2 p q) = _
  rw [rows_apply, rows_apply]
  rfl

end Cert.ReferenceIdeal.RefValue

end
-- ==== Proof.RefStageIndex.lean ====
/-
  The index-by-index stretches of the reference read against the network's functions: after an affine stretch
  its last buffer holds `GcnSpec.affineRelu` (for the last layer `GcnSpec.affine`) of the aggregation buffer,
  the weights and the bias; after a normalisation stretch its last buffer holds `GcnSpec.bnorm` of the clamped
  matrix and the mean and variance buffers.
-/
import proofs.«117376_j33208687133526_1_alg».proof.Proof.RefOps
import proofs.«117376_j33208687133526_1_alg».proof.Proof.RefIndex

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The contents of the reference's buffers, at the extended reals. -/
local notation "Val" => Valuation τ sig (Elt Ideal)

theorem aff0_v33 (W : Val) : after (opsAff0 (F := Ideal)) W (Proc.devRef .tc main_v33)
    = GcnSpec.affineRelu (W (Proc.devRef .tc main_v28)) (W (Proc.devRef .tc main_arg1)) (fun q => W (Proc.devRef .tc main_arg2) (ix1 q)) := by
  simp only [opsAff0]
  after_results_simp
  exact affRelu_eq _ _ _

theorem aff1_v67 (W : Val) : after (opsAff1 (F := Ideal)) W (Proc.devRef .tc main_v67)
    = GcnSpec.affineRelu (W (Proc.devRef .tc main_v62)) (W (Proc.devRef .tc main_arg3)) (fun q => W (Proc.devRef .tc main_arg4) (ix1 q)) := by
  simp only [opsAff1]
  after_results_simp
  exact affRelu_eq _ _ _

theorem aff2_v100 (W : Val) : after (opsAff2 (F := Ideal)) W (Proc.devRef .tc main_v100)
    = GcnSpec.affine (W (Proc.devRef .tc main_v96)) (W (Proc.devRef .tc main_arg5)) (fun q => W (Proc.devRef .tc main_arg6) (ix1 q)) := by
  simp only [opsAff2]
  after_results_simp
  exact aff_eq _ _ _

theorem bn0_v46 (W : Val) : after (opsBn0 (F := Ideal)) W (Proc.devRef .tc main_v46)
    = GcnSpec.bnorm (W (Proc.devRef .tc main_v33)) (fun q => W (Proc.devRef .tc main_v36) (ix1 q)) (fun q => W (Proc.devRef .tc main_v37) (ix1 q)) := by
  simp only [opsBn0]
  after_results_simp
  exact bnorm_eq _ _ _

theorem bn1_v80 (W : Val) : after (opsBn1 (F := Ideal)) W (Proc.devRef .tc main_v80)
    = GcnSpec.bnorm (W (Proc.devRef .tc main_v67)) (fun q => W (Proc.devRef .tc main_v70) (ix1 q)) (fun q => W (Proc.devRef .tc main_v71) (ix1 q)) := by
  simp only [opsBn1]
  after_results_simp
  exact bnorm_eq _ _ _

end Cert.ReferenceIdeal.RefValue

end
-- ==== Proof.RefValue.lean ====
/-
  The reference's result as the network's function of its arguments.

  The operations' fold is taken stretch by stretch: `valK V` is the buffers' contents after the first K
  stretches from contents `V`. Each stretch's own lemma says what its last buffers hold in terms of the
  contents before it; a buffer a stretch does not write keeps its contents through it. Threading the two
  through the eleven stretches, the result buffer holds `GcnSpec.net` at the reference's own aggregation, mean
  and variance terms, of the argument buffers' contents, and every argument buffer is unchanged.
-/
import proofs.«117376_j33208687133526_1_alg».proof.Proof.RefRun
import proofs.«117376_j33208687133526_1_alg».proof.Proof.RefStageFolded
import proofs.«117376_j33208687133526_1_alg».proof.Proof.RefStageIndex
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The contents of the reference's buffers, at the extended reals. -/
local notation "Val" => Valuation τ sig (Elt Ideal)

/-! ## The contents after each stretch -/

def val1 (V : Val) : Val := after (opsNorm (F := Ideal)) V
def val2 (V : Val) : Val := after (opsAgg0 (F := Ideal)) (val1 V)
def val3 (V : Val) : Val := after (opsAff0 (F := Ideal)) (val2 V)
def val4 (V : Val) : Val := after (opsStat0 (F := Ideal)) (val3 V)
def val5 (V : Val) : Val := after (opsBn0 (F := Ideal)) (val4 V)
def val6 (V : Val) : Val := after (opsAgg1 (F := Ideal)) (val5 V)
def val7 (V : Val) : Val := after (opsAff1 (F := Ideal)) (val6 V)
def val8 (V : Val) : Val := after (opsStat1 (F := Ideal)) (val7 V)
def val9 (V : Val) : Val := after (opsBn1 (F := Ideal)) (val8 V)
def val10 (V : Val) : Val := after (opsAgg2 (F := Ideal)) (val9 V)
def val11 (V : Val) : Val := after (opsAff2 (F := Ideal)) (val10 V)

theorem after_ops (V : Val) : after (ops (F := Ideal)) V = val11 V := by
  simp only [ops, after_append]
  rfl

/-! ## The network's intermediate matrices, of the argument contents -/

/-- The aggregation at the contents' two edge arrays. -/
abbrev aggV (V : Val) : GcnSpec.Mat 100000 128 → GcnSpec.Mat 100000 128 :=
  aggR (V (Proc.devRef .tc main_arg7)) (V (Proc.devRef .tc main_arg8))
/-- The three biases as functions of the column. -/
abbrev b0 (V : Val) : Fin 128 → EReal := fun q => V (Proc.devRef .tc main_arg2) (ix1 q)
abbrev b1 (V : Val) : Fin 128 → EReal := fun q => V (Proc.devRef .tc main_arg4) (ix1 q)
abbrev b2 (V : Val) : Fin 64 → EReal := fun q => V (Proc.devRef .tc main_arg6) (ix1 q)
/-- The first layer before its normalisation, and after it. -/
def Y0 (V : Val) : GcnSpec.Mat 100000 128 := GcnSpec.affineRelu (aggV V (V (Proc.devRef .tc main_arg0))) (V (Proc.devRef .tc main_arg1)) (b0 V)
def H0 (V : Val) : GcnSpec.Mat 100000 128 := GcnSpec.hidden (aggV V) meanR varR (V (Proc.devRef .tc main_arg0)) (V (Proc.devRef .tc main_arg1)) (b0 V)
/-- The second layer before its normalisation, and after it. -/
def Y1 (V : Val) : GcnSpec.Mat 100000 128 := GcnSpec.affineRelu (aggV V (H0 V)) (V (Proc.devRef .tc main_arg3)) (b1 V)
def H1 (V : Val) : GcnSpec.Mat 100000 128 := GcnSpec.hidden (aggV V) meanR varR (H0 V) (V (Proc.devRef .tc main_arg3)) (b1 V)

/-! ## The argument buffers, kept through every stretch -/
theorem val1_arg0 (V : Val) : val1 V (Proc.devRef .tc main_arg0) = V (Proc.devRef .tc main_arg0) :=
  opsNorm_keep V main_arg0 (by decide)
theorem val2_arg0 (V : Val) : val2 V (Proc.devRef .tc main_arg0) = V (Proc.devRef .tc main_arg0) :=
  (opsAgg0_keep (val1 V) main_arg0 (by decide)).trans (val1_arg0 V)
theorem val3_arg0 (V : Val) : val3 V (Proc.devRef .tc main_arg0) = V (Proc.devRef .tc main_arg0) :=
  (opsAff0_keep (val2 V) main_arg0 (by decide)).trans (val2_arg0 V)
theorem val4_arg0 (V : Val) : val4 V (Proc.devRef .tc main_arg0) = V (Proc.devRef .tc main_arg0) :=
  (opsStat0_keep (val3 V) main_arg0 (by decide)).trans (val3_arg0 V)
theorem val5_arg0 (V : Val) : val5 V (Proc.devRef .tc main_arg0) = V (Proc.devRef .tc main_arg0) :=
  (opsBn0_keep (val4 V) main_arg0 (by decide)).trans (val4_arg0 V)
theorem val6_arg0 (V : Val) : val6 V (Proc.devRef .tc main_arg0) = V (Proc.devRef .tc main_arg0) :=
  (opsAgg1_keep (val5 V) main_arg0 (by decide)).trans (val5_arg0 V)
theorem val7_arg0 (V : Val) : val7 V (Proc.devRef .tc main_arg0) = V (Proc.devRef .tc main_arg0) :=
  (opsAff1_keep (val6 V) main_arg0 (by decide)).trans (val6_arg0 V)
theorem val8_arg0 (V : Val) : val8 V (Proc.devRef .tc main_arg0) = V (Proc.devRef .tc main_arg0) :=
  (opsStat1_keep (val7 V) main_arg0 (by decide)).trans (val7_arg0 V)
theorem val9_arg0 (V : Val) : val9 V (Proc.devRef .tc main_arg0) = V (Proc.devRef .tc main_arg0) :=
  (opsBn1_keep (val8 V) main_arg0 (by decide)).trans (val8_arg0 V)
theorem val10_arg0 (V : Val) : val10 V (Proc.devRef .tc main_arg0) = V (Proc.devRef .tc main_arg0) :=
  (opsAgg2_keep (val9 V) main_arg0 (by decide)).trans (val9_arg0 V)
theorem val11_arg0 (V : Val) : val11 V (Proc.devRef .tc main_arg0) = V (Proc.devRef .tc main_arg0) :=
  (opsAff2_keep (val10 V) main_arg0 (by decide)).trans (val10_arg0 V)

theorem val1_arg1 (V : Val) : val1 V (Proc.devRef .tc main_arg1) = V (Proc.devRef .tc main_arg1) :=
  opsNorm_keep V main_arg1 (by decide)
theorem val2_arg1 (V : Val) : val2 V (Proc.devRef .tc main_arg1) = V (Proc.devRef .tc main_arg1) :=
  (opsAgg0_keep (val1 V) main_arg1 (by decide)).trans (val1_arg1 V)
theorem val3_arg1 (V : Val) : val3 V (Proc.devRef .tc main_arg1) = V (Proc.devRef .tc main_arg1) :=
  (opsAff0_keep (val2 V) main_arg1 (by decide)).trans (val2_arg1 V)
theorem val4_arg1 (V : Val) : val4 V (Proc.devRef .tc main_arg1) = V (Proc.devRef .tc main_arg1) :=
  (opsStat0_keep (val3 V) main_arg1 (by decide)).trans (val3_arg1 V)
theorem val5_arg1 (V : Val) : val5 V (Proc.devRef .tc main_arg1) = V (Proc.devRef .tc main_arg1) :=
  (opsBn0_keep (val4 V) main_arg1 (by decide)).trans (val4_arg1 V)
theorem val6_arg1 (V : Val) : val6 V (Proc.devRef .tc main_arg1) = V (Proc.devRef .tc main_arg1) :=
  (opsAgg1_keep (val5 V) main_arg1 (by decide)).trans (val5_arg1 V)
theorem val7_arg1 (V : Val) : val7 V (Proc.devRef .tc main_arg1) = V (Proc.devRef .tc main_arg1) :=
  (opsAff1_keep (val6 V) main_arg1 (by decide)).trans (val6_arg1 V)
theorem val8_arg1 (V : Val) : val8 V (Proc.devRef .tc main_arg1) = V (Proc.devRef .tc main_arg1) :=
  (opsStat1_keep (val7 V) main_arg1 (by decide)).trans (val7_arg1 V)
theorem val9_arg1 (V : Val) : val9 V (Proc.devRef .tc main_arg1) = V (Proc.devRef .tc main_arg1) :=
  (opsBn1_keep (val8 V) main_arg1 (by decide)).trans (val8_arg1 V)
theorem val10_arg1 (V : Val) : val10 V (Proc.devRef .tc main_arg1) = V (Proc.devRef .tc main_arg1) :=
  (opsAgg2_keep (val9 V) main_arg1 (by decide)).trans (val9_arg1 V)
theorem val11_arg1 (V : Val) : val11 V (Proc.devRef .tc main_arg1) = V (Proc.devRef .tc main_arg1) :=
  (opsAff2_keep (val10 V) main_arg1 (by decide)).trans (val10_arg1 V)

theorem val1_arg2 (V : Val) : val1 V (Proc.devRef .tc main_arg2) = V (Proc.devRef .tc main_arg2) :=
  opsNorm_keep V main_arg2 (by decide)
theorem val2_arg2 (V : Val) : val2 V (Proc.devRef .tc main_arg2) = V (Proc.devRef .tc main_arg2) :=
  (opsAgg0_keep (val1 V) main_arg2 (by decide)).trans (val1_arg2 V)
theorem val3_arg2 (V : Val) : val3 V (Proc.devRef .tc main_arg2) = V (Proc.devRef .tc main_arg2) :=
  (opsAff0_keep (val2 V) main_arg2 (by decide)).trans (val2_arg2 V)
theorem val4_arg2 (V : Val) : val4 V (Proc.devRef .tc main_arg2) = V (Proc.devRef .tc main_arg2) :=
  (opsStat0_keep (val3 V) main_arg2 (by decide)).trans (val3_arg2 V)
theorem val5_arg2 (V : Val) : val5 V (Proc.devRef .tc main_arg2) = V (Proc.devRef .tc main_arg2) :=
  (opsBn0_keep (val4 V) main_arg2 (by decide)).trans (val4_arg2 V)
theorem val6_arg2 (V : Val) : val6 V (Proc.devRef .tc main_arg2) = V (Proc.devRef .tc main_arg2) :=
  (opsAgg1_keep (val5 V) main_arg2 (by decide)).trans (val5_arg2 V)
theorem val7_arg2 (V : Val) : val7 V (Proc.devRef .tc main_arg2) = V (Proc.devRef .tc main_arg2) :=
  (opsAff1_keep (val6 V) main_arg2 (by decide)).trans (val6_arg2 V)
theorem val8_arg2 (V : Val) : val8 V (Proc.devRef .tc main_arg2) = V (Proc.devRef .tc main_arg2) :=
  (opsStat1_keep (val7 V) main_arg2 (by decide)).trans (val7_arg2 V)
theorem val9_arg2 (V : Val) : val9 V (Proc.devRef .tc main_arg2) = V (Proc.devRef .tc main_arg2) :=
  (opsBn1_keep (val8 V) main_arg2 (by decide)).trans (val8_arg2 V)
theorem val10_arg2 (V : Val) : val10 V (Proc.devRef .tc main_arg2) = V (Proc.devRef .tc main_arg2) :=
  (opsAgg2_keep (val9 V) main_arg2 (by decide)).trans (val9_arg2 V)
theorem val11_arg2 (V : Val) : val11 V (Proc.devRef .tc main_arg2) = V (Proc.devRef .tc main_arg2) :=
  (opsAff2_keep (val10 V) main_arg2 (by decide)).trans (val10_arg2 V)

theorem val1_arg3 (V : Val) : val1 V (Proc.devRef .tc main_arg3) = V (Proc.devRef .tc main_arg3) :=
  opsNorm_keep V main_arg3 (by decide)
theorem val2_arg3 (V : Val) : val2 V (Proc.devRef .tc main_arg3) = V (Proc.devRef .tc main_arg3) :=
  (opsAgg0_keep (val1 V) main_arg3 (by decide)).trans (val1_arg3 V)
theorem val3_arg3 (V : Val) : val3 V (Proc.devRef .tc main_arg3) = V (Proc.devRef .tc main_arg3) :=
  (opsAff0_keep (val2 V) main_arg3 (by decide)).trans (val2_arg3 V)
theorem val4_arg3 (V : Val) : val4 V (Proc.devRef .tc main_arg3) = V (Proc.devRef .tc main_arg3) :=
  (opsStat0_keep (val3 V) main_arg3 (by decide)).trans (val3_arg3 V)
theorem val5_arg3 (V : Val) : val5 V (Proc.devRef .tc main_arg3) = V (Proc.devRef .tc main_arg3) :=
  (opsBn0_keep (val4 V) main_arg3 (by decide)).trans (val4_arg3 V)
theorem val6_arg3 (V : Val) : val6 V (Proc.devRef .tc main_arg3) = V (Proc.devRef .tc main_arg3) :=
  (opsAgg1_keep (val5 V) main_arg3 (by decide)).trans (val5_arg3 V)
theorem val7_arg3 (V : Val) : val7 V (Proc.devRef .tc main_arg3) = V (Proc.devRef .tc main_arg3) :=
  (opsAff1_keep (val6 V) main_arg3 (by decide)).trans (val6_arg3 V)
theorem val8_arg3 (V : Val) : val8 V (Proc.devRef .tc main_arg3) = V (Proc.devRef .tc main_arg3) :=
  (opsStat1_keep (val7 V) main_arg3 (by decide)).trans (val7_arg3 V)
theorem val9_arg3 (V : Val) : val9 V (Proc.devRef .tc main_arg3) = V (Proc.devRef .tc main_arg3) :=
  (opsBn1_keep (val8 V) main_arg3 (by decide)).trans (val8_arg3 V)
theorem val10_arg3 (V : Val) : val10 V (Proc.devRef .tc main_arg3) = V (Proc.devRef .tc main_arg3) :=
  (opsAgg2_keep (val9 V) main_arg3 (by decide)).trans (val9_arg3 V)
theorem val11_arg3 (V : Val) : val11 V (Proc.devRef .tc main_arg3) = V (Proc.devRef .tc main_arg3) :=
  (opsAff2_keep (val10 V) main_arg3 (by decide)).trans (val10_arg3 V)

theorem val1_arg4 (V : Val) : val1 V (Proc.devRef .tc main_arg4) = V (Proc.devRef .tc main_arg4) :=
  opsNorm_keep V main_arg4 (by decide)
theorem val2_arg4 (V : Val) : val2 V (Proc.devRef .tc main_arg4) = V (Proc.devRef .tc main_arg4) :=
  (opsAgg0_keep (val1 V) main_arg4 (by decide)).trans (val1_arg4 V)
theorem val3_arg4 (V : Val) : val3 V (Proc.devRef .tc main_arg4) = V (Proc.devRef .tc main_arg4) :=
  (opsAff0_keep (val2 V) main_arg4 (by decide)).trans (val2_arg4 V)
theorem val4_arg4 (V : Val) : val4 V (Proc.devRef .tc main_arg4) = V (Proc.devRef .tc main_arg4) :=
  (opsStat0_keep (val3 V) main_arg4 (by decide)).trans (val3_arg4 V)
theorem val5_arg4 (V : Val) : val5 V (Proc.devRef .tc main_arg4) = V (Proc.devRef .tc main_arg4) :=
  (opsBn0_keep (val4 V) main_arg4 (by decide)).trans (val4_arg4 V)
theorem val6_arg4 (V : Val) : val6 V (Proc.devRef .tc main_arg4) = V (Proc.devRef .tc main_arg4) :=
  (opsAgg1_keep (val5 V) main_arg4 (by decide)).trans (val5_arg4 V)
theorem val7_arg4 (V : Val) : val7 V (Proc.devRef .tc main_arg4) = V (Proc.devRef .tc main_arg4) :=
  (opsAff1_keep (val6 V) main_arg4 (by decide)).trans (val6_arg4 V)
theorem val8_arg4 (V : Val) : val8 V (Proc.devRef .tc main_arg4) = V (Proc.devRef .tc main_arg4) :=
  (opsStat1_keep (val7 V) main_arg4 (by decide)).trans (val7_arg4 V)
theorem val9_arg4 (V : Val) : val9 V (Proc.devRef .tc main_arg4) = V (Proc.devRef .tc main_arg4) :=
  (opsBn1_keep (val8 V) main_arg4 (by decide)).trans (val8_arg4 V)
theorem val10_arg4 (V : Val) : val10 V (Proc.devRef .tc main_arg4) = V (Proc.devRef .tc main_arg4) :=
  (opsAgg2_keep (val9 V) main_arg4 (by decide)).trans (val9_arg4 V)
theorem val11_arg4 (V : Val) : val11 V (Proc.devRef .tc main_arg4) = V (Proc.devRef .tc main_arg4) :=
  (opsAff2_keep (val10 V) main_arg4 (by decide)).trans (val10_arg4 V)

theorem val1_arg5 (V : Val) : val1 V (Proc.devRef .tc main_arg5) = V (Proc.devRef .tc main_arg5) :=
  opsNorm_keep V main_arg5 (by decide)
theorem val2_arg5 (V : Val) : val2 V (Proc.devRef .tc main_arg5) = V (Proc.devRef .tc main_arg5) :=
  (opsAgg0_keep (val1 V) main_arg5 (by decide)).trans (val1_arg5 V)
theorem val3_arg5 (V : Val) : val3 V (Proc.devRef .tc main_arg5) = V (Proc.devRef .tc main_arg5) :=
  (opsAff0_keep (val2 V) main_arg5 (by decide)).trans (val2_arg5 V)
theorem val4_arg5 (V : Val) : val4 V (Proc.devRef .tc main_arg5) = V (Proc.devRef .tc main_arg5) :=
  (opsStat0_keep (val3 V) main_arg5 (by decide)).trans (val3_arg5 V)
theorem val5_arg5 (V : Val) : val5 V (Proc.devRef .tc main_arg5) = V (Proc.devRef .tc main_arg5) :=
  (opsBn0_keep (val4 V) main_arg5 (by decide)).trans (val4_arg5 V)
theorem val6_arg5 (V : Val) : val6 V (Proc.devRef .tc main_arg5) = V (Proc.devRef .tc main_arg5) :=
  (opsAgg1_keep (val5 V) main_arg5 (by decide)).trans (val5_arg5 V)
theorem val7_arg5 (V : Val) : val7 V (Proc.devRef .tc main_arg5) = V (Proc.devRef .tc main_arg5) :=
  (opsAff1_keep (val6 V) main_arg5 (by decide)).trans (val6_arg5 V)
theorem val8_arg5 (V : Val) : val8 V (Proc.devRef .tc main_arg5) = V (Proc.devRef .tc main_arg5) :=
  (opsStat1_keep (val7 V) main_arg5 (by decide)).trans (val7_arg5 V)
theorem val9_arg5 (V : Val) : val9 V (Proc.devRef .tc main_arg5) = V (Proc.devRef .tc main_arg5) :=
  (opsBn1_keep (val8 V) main_arg5 (by decide)).trans (val8_arg5 V)
theorem val10_arg5 (V : Val) : val10 V (Proc.devRef .tc main_arg5) = V (Proc.devRef .tc main_arg5) :=
  (opsAgg2_keep (val9 V) main_arg5 (by decide)).trans (val9_arg5 V)
theorem val11_arg5 (V : Val) : val11 V (Proc.devRef .tc main_arg5) = V (Proc.devRef .tc main_arg5) :=
  (opsAff2_keep (val10 V) main_arg5 (by decide)).trans (val10_arg5 V)

theorem val1_arg6 (V : Val) : val1 V (Proc.devRef .tc main_arg6) = V (Proc.devRef .tc main_arg6) :=
  opsNorm_keep V main_arg6 (by decide)
theorem val2_arg6 (V : Val) : val2 V (Proc.devRef .tc main_arg6) = V (Proc.devRef .tc main_arg6) :=
  (opsAgg0_keep (val1 V) main_arg6 (by decide)).trans (val1_arg6 V)
theorem val3_arg6 (V : Val) : val3 V (Proc.devRef .tc main_arg6) = V (Proc.devRef .tc main_arg6) :=
  (opsAff0_keep (val2 V) main_arg6 (by decide)).trans (val2_arg6 V)
theorem val4_arg6 (V : Val) : val4 V (Proc.devRef .tc main_arg6) = V (Proc.devRef .tc main_arg6) :=
  (opsStat0_keep (val3 V) main_arg6 (by decide)).trans (val3_arg6 V)
theorem val5_arg6 (V : Val) : val5 V (Proc.devRef .tc main_arg6) = V (Proc.devRef .tc main_arg6) :=
  (opsBn0_keep (val4 V) main_arg6 (by decide)).trans (val4_arg6 V)
theorem val6_arg6 (V : Val) : val6 V (Proc.devRef .tc main_arg6) = V (Proc.devRef .tc main_arg6) :=
  (opsAgg1_keep (val5 V) main_arg6 (by decide)).trans (val5_arg6 V)
theorem val7_arg6 (V : Val) : val7 V (Proc.devRef .tc main_arg6) = V (Proc.devRef .tc main_arg6) :=
  (opsAff1_keep (val6 V) main_arg6 (by decide)).trans (val6_arg6 V)
theorem val8_arg6 (V : Val) : val8 V (Proc.devRef .tc main_arg6) = V (Proc.devRef .tc main_arg6) :=
  (opsStat1_keep (val7 V) main_arg6 (by decide)).trans (val7_arg6 V)
theorem val9_arg6 (V : Val) : val9 V (Proc.devRef .tc main_arg6) = V (Proc.devRef .tc main_arg6) :=
  (opsBn1_keep (val8 V) main_arg6 (by decide)).trans (val8_arg6 V)
theorem val10_arg6 (V : Val) : val10 V (Proc.devRef .tc main_arg6) = V (Proc.devRef .tc main_arg6) :=
  (opsAgg2_keep (val9 V) main_arg6 (by decide)).trans (val9_arg6 V)
theorem val11_arg6 (V : Val) : val11 V (Proc.devRef .tc main_arg6) = V (Proc.devRef .tc main_arg6) :=
  (opsAff2_keep (val10 V) main_arg6 (by decide)).trans (val10_arg6 V)

theorem val1_arg7 (V : Val) : val1 V (Proc.devRef .tc main_arg7) = V (Proc.devRef .tc main_arg7) :=
  opsNorm_keep V main_arg7 (by decide)
theorem val2_arg7 (V : Val) : val2 V (Proc.devRef .tc main_arg7) = V (Proc.devRef .tc main_arg7) :=
  (opsAgg0_keep (val1 V) main_arg7 (by decide)).trans (val1_arg7 V)
theorem val3_arg7 (V : Val) : val3 V (Proc.devRef .tc main_arg7) = V (Proc.devRef .tc main_arg7) :=
  (opsAff0_keep (val2 V) main_arg7 (by decide)).trans (val2_arg7 V)
theorem val4_arg7 (V : Val) : val4 V (Proc.devRef .tc main_arg7) = V (Proc.devRef .tc main_arg7) :=
  (opsStat0_keep (val3 V) main_arg7 (by decide)).trans (val3_arg7 V)
theorem val5_arg7 (V : Val) : val5 V (Proc.devRef .tc main_arg7) = V (Proc.devRef .tc main_arg7) :=
  (opsBn0_keep (val4 V) main_arg7 (by decide)).trans (val4_arg7 V)
theorem val6_arg7 (V : Val) : val6 V (Proc.devRef .tc main_arg7) = V (Proc.devRef .tc main_arg7) :=
  (opsAgg1_keep (val5 V) main_arg7 (by decide)).trans (val5_arg7 V)
theorem val7_arg7 (V : Val) : val7 V (Proc.devRef .tc main_arg7) = V (Proc.devRef .tc main_arg7) :=
  (opsAff1_keep (val6 V) main_arg7 (by decide)).trans (val6_arg7 V)
theorem val8_arg7 (V : Val) : val8 V (Proc.devRef .tc main_arg7) = V (Proc.devRef .tc main_arg7) :=
  (opsStat1_keep (val7 V) main_arg7 (by decide)).trans (val7_arg7 V)
theorem val9_arg7 (V : Val) : val9 V (Proc.devRef .tc main_arg7) = V (Proc.devRef .tc main_arg7) :=
  (opsBn1_keep (val8 V) main_arg7 (by decide)).trans (val8_arg7 V)
theorem val10_arg7 (V : Val) : val10 V (Proc.devRef .tc main_arg7) = V (Proc.devRef .tc main_arg7) :=
  (opsAgg2_keep (val9 V) main_arg7 (by decide)).trans (val9_arg7 V)
theorem val11_arg7 (V : Val) : val11 V (Proc.devRef .tc main_arg7) = V (Proc.devRef .tc main_arg7) :=
  (opsAff2_keep (val10 V) main_arg7 (by decide)).trans (val10_arg7 V)

theorem val1_arg8 (V : Val) : val1 V (Proc.devRef .tc main_arg8) = V (Proc.devRef .tc main_arg8) :=
  opsNorm_keep V main_arg8 (by decide)
theorem val2_arg8 (V : Val) : val2 V (Proc.devRef .tc main_arg8) = V (Proc.devRef .tc main_arg8) :=
  (opsAgg0_keep (val1 V) main_arg8 (by decide)).trans (val1_arg8 V)
theorem val3_arg8 (V : Val) : val3 V (Proc.devRef .tc main_arg8) = V (Proc.devRef .tc main_arg8) :=
  (opsAff0_keep (val2 V) main_arg8 (by decide)).trans (val2_arg8 V)
theorem val4_arg8 (V : Val) : val4 V (Proc.devRef .tc main_arg8) = V (Proc.devRef .tc main_arg8) :=
  (opsStat0_keep (val3 V) main_arg8 (by decide)).trans (val3_arg8 V)
theorem val5_arg8 (V : Val) : val5 V (Proc.devRef .tc main_arg8) = V (Proc.devRef .tc main_arg8) :=
  (opsBn0_keep (val4 V) main_arg8 (by decide)).trans (val4_arg8 V)
theorem val6_arg8 (V : Val) : val6 V (Proc.devRef .tc main_arg8) = V (Proc.devRef .tc main_arg8) :=
  (opsAgg1_keep (val5 V) main_arg8 (by decide)).trans (val5_arg8 V)
theorem val7_arg8 (V : Val) : val7 V (Proc.devRef .tc main_arg8) = V (Proc.devRef .tc main_arg8) :=
  (opsAff1_keep (val6 V) main_arg8 (by decide)).trans (val6_arg8 V)
theorem val8_arg8 (V : Val) : val8 V (Proc.devRef .tc main_arg8) = V (Proc.devRef .tc main_arg8) :=
  (opsStat1_keep (val7 V) main_arg8 (by decide)).trans (val7_arg8 V)
theorem val9_arg8 (V : Val) : val9 V (Proc.devRef .tc main_arg8) = V (Proc.devRef .tc main_arg8) :=
  (opsBn1_keep (val8 V) main_arg8 (by decide)).trans (val8_arg8 V)
theorem val10_arg8 (V : Val) : val10 V (Proc.devRef .tc main_arg8) = V (Proc.devRef .tc main_arg8) :=
  (opsAgg2_keep (val9 V) main_arg8 (by decide)).trans (val9_arg8 V)
theorem val11_arg8 (V : Val) : val11 V (Proc.devRef .tc main_arg8) = V (Proc.devRef .tc main_arg8) :=
  (opsAff2_keep (val10 V) main_arg8 (by decide)).trans (val10_arg8 V)

/-! ## The degree factors -/

theorem val1_v11 (V : Val) : val1 V (Proc.devRef .tc main_v11) = normSrcR (V (Proc.devRef .tc main_arg7)) := norm_v11 V
theorem val1_v12 (V : Val) : val1 V (Proc.devRef .tc main_v12) = normDstR (V (Proc.devRef .tc main_arg8)) := norm_v12 V
theorem val2_v11 (V : Val) : val2 V (Proc.devRef .tc main_v11) = normSrcR (V (Proc.devRef .tc main_arg7)) :=
  (opsAgg0_keep (val1 V) main_v11 (by decide)).trans (val1_v11 V)
theorem val3_v11 (V : Val) : val3 V (Proc.devRef .tc main_v11) = normSrcR (V (Proc.devRef .tc main_arg7)) :=
  (opsAff0_keep (val2 V) main_v11 (by decide)).trans (val2_v11 V)
theorem val4_v11 (V : Val) : val4 V (Proc.devRef .tc main_v11) = normSrcR (V (Proc.devRef .tc main_arg7)) :=
  (opsStat0_keep (val3 V) main_v11 (by decide)).trans (val3_v11 V)
theorem val5_v11 (V : Val) : val5 V (Proc.devRef .tc main_v11) = normSrcR (V (Proc.devRef .tc main_arg7)) :=
  (opsBn0_keep (val4 V) main_v11 (by decide)).trans (val4_v11 V)
theorem val6_v11 (V : Val) : val6 V (Proc.devRef .tc main_v11) = normSrcR (V (Proc.devRef .tc main_arg7)) :=
  (opsAgg1_keep (val5 V) main_v11 (by decide)).trans (val5_v11 V)
theorem val7_v11 (V : Val) : val7 V (Proc.devRef .tc main_v11) = normSrcR (V (Proc.devRef .tc main_arg7)) :=
  (opsAff1_keep (val6 V) main_v11 (by decide)).trans (val6_v11 V)
theorem val8_v11 (V : Val) : val8 V (Proc.devRef .tc main_v11) = normSrcR (V (Proc.devRef .tc main_arg7)) :=
  (opsStat1_keep (val7 V) main_v11 (by decide)).trans (val7_v11 V)
theorem val9_v11 (V : Val) : val9 V (Proc.devRef .tc main_v11) = normSrcR (V (Proc.devRef .tc main_arg7)) :=
  (opsBn1_keep (val8 V) main_v11 (by decide)).trans (val8_v11 V)
theorem val10_v11 (V : Val) : val10 V (Proc.devRef .tc main_v11) = normSrcR (V (Proc.devRef .tc main_arg7)) :=
  (opsAgg2_keep (val9 V) main_v11 (by decide)).trans (val9_v11 V)
theorem val2_v12 (V : Val) : val2 V (Proc.devRef .tc main_v12) = normDstR (V (Proc.devRef .tc main_arg8)) :=
  (opsAgg0_keep (val1 V) main_v12 (by decide)).trans (val1_v12 V)
theorem val3_v12 (V : Val) : val3 V (Proc.devRef .tc main_v12) = normDstR (V (Proc.devRef .tc main_arg8)) :=
  (opsAff0_keep (val2 V) main_v12 (by decide)).trans (val2_v12 V)
theorem val4_v12 (V : Val) : val4 V (Proc.devRef .tc main_v12) = normDstR (V (Proc.devRef .tc main_arg8)) :=
  (opsStat0_keep (val3 V) main_v12 (by decide)).trans (val3_v12 V)
theorem val5_v12 (V : Val) : val5 V (Proc.devRef .tc main_v12) = normDstR (V (Proc.devRef .tc main_arg8)) :=
  (opsBn0_keep (val4 V) main_v12 (by decide)).trans (val4_v12 V)
theorem val6_v12 (V : Val) : val6 V (Proc.devRef .tc main_v12) = normDstR (V (Proc.devRef .tc main_arg8)) :=
  (opsAgg1_keep (val5 V) main_v12 (by decide)).trans (val5_v12 V)
theorem val7_v12 (V : Val) : val7 V (Proc.devRef .tc main_v12) = normDstR (V (Proc.devRef .tc main_arg8)) :=
  (opsAff1_keep (val6 V) main_v12 (by decide)).trans (val6_v12 V)
theorem val8_v12 (V : Val) : val8 V (Proc.devRef .tc main_v12) = normDstR (V (Proc.devRef .tc main_arg8)) :=
  (opsStat1_keep (val7 V) main_v12 (by decide)).trans (val7_v12 V)
theorem val9_v12 (V : Val) : val9 V (Proc.devRef .tc main_v12) = normDstR (V (Proc.devRef .tc main_arg8)) :=
  (opsBn1_keep (val8 V) main_v12 (by decide)).trans (val8_v12 V)
theorem val10_v12 (V : Val) : val10 V (Proc.devRef .tc main_v12) = normDstR (V (Proc.devRef .tc main_arg8)) :=
  (opsAgg2_keep (val9 V) main_v12 (by decide)).trans (val9_v12 V)

/-! ## The first layer -/

theorem val2_v28 (V : Val) : val2 V (Proc.devRef .tc main_v28) = aggV V (V (Proc.devRef .tc main_arg0)) :=
  (agg0_v28 (val1 V)).trans (by rw [val1_v11, val1_v12, val1_arg7, val1_arg8, val1_arg0]; exact aggT_norm _ _ _)
theorem val3_v33 (V : Val) : val3 V (Proc.devRef .tc main_v33) = Y0 V :=
  (aff0_v33 (val2 V)).trans (by rw [val2_v28, val2_arg1, val2_arg2]; rfl)
theorem val4_v33 (V : Val) : val4 V (Proc.devRef .tc main_v33) = Y0 V :=
  (opsStat0_keep (val3 V) main_v33 (by decide)).trans (val3_v33 V)
theorem val4_v36 (V : Val) : val4 V (Proc.devRef .tc main_v36) = meanVecR (Y0 V) :=
  (stat0_mean (val3 V)).trans (by rw [val3_v33])
theorem val4_v37 (V : Val) : val4 V (Proc.devRef .tc main_v37) = varVecR (Y0 V) :=
  (stat0_var (val3 V)).trans (by rw [val3_v33])
theorem val5_v46 (V : Val) : val5 V (Proc.devRef .tc main_v46) = H0 V :=
  (bn0_v46 (val4 V)).trans (by rw [val4_v33, val4_v36, val4_v37]; rfl)

/-! ## The second layer -/

theorem val6_v62 (V : Val) : val6 V (Proc.devRef .tc main_v62) = aggV V (H0 V) :=
  (agg1_v62 (val5 V)).trans (by rw [val5_v11, val5_v12, val5_arg7, val5_arg8, val5_v46]; exact aggT_norm _ _ _)
theorem val7_v67 (V : Val) : val7 V (Proc.devRef .tc main_v67) = Y1 V :=
  (aff1_v67 (val6 V)).trans (by rw [val6_v62, val6_arg3, val6_arg4]; rfl)
theorem val8_v67 (V : Val) : val8 V (Proc.devRef .tc main_v67) = Y1 V :=
  (opsStat1_keep (val7 V) main_v67 (by decide)).trans (val7_v67 V)
theorem val8_v70 (V : Val) : val8 V (Proc.devRef .tc main_v70) = meanVecR (Y1 V) :=
  (stat1_mean (val7 V)).trans (by rw [val7_v67])
theorem val8_v71 (V : Val) : val8 V (Proc.devRef .tc main_v71) = varVecR (Y1 V) :=
  (stat1_var (val7 V)).trans (by rw [val7_v67])
theorem val9_v80 (V : Val) : val9 V (Proc.devRef .tc main_v80) = H1 V :=
  (bn1_v80 (val8 V)).trans (by rw [val8_v67, val8_v70, val8_v71]; rfl)

/-! ## The last layer -/

theorem val10_v96 (V : Val) : val10 V (Proc.devRef .tc main_v96) = aggV V (H1 V) :=
  (agg2_v96 (val9 V)).trans (by rw [val9_v11, val9_v12, val9_arg7, val9_arg8, val9_v80]; exact aggT_norm _ _ _)
theorem val11_v100 (V : Val) : val11 V (Proc.devRef .tc main_v100) = GcnSpec.net (aggV V) meanR varR (V (Proc.devRef .tc main_arg0)) (V (Proc.devRef .tc main_arg1)) (b0 V) (V (Proc.devRef .tc main_arg3)) (b1 V) (V (Proc.devRef .tc main_arg5)) (b2 V) :=
  (aff2_v100 (val10 V)).trans (by rw [val10_v96, val10_arg5, val10_arg6]; rfl)

/-! ## The fold of the whole line -/

/-- After all the operations the result buffer holds the network's function of the argument contents. -/
theorem value (V : Val) : after (ops (F := Ideal)) V (Proc.devRef .tc main_v100)
    = GcnSpec.net (aggR (V (Proc.devRef .tc main_arg7)) (V (Proc.devRef .tc main_arg8))) meanR varR (V (Proc.devRef .tc main_arg0)) (V (Proc.devRef .tc main_arg1))
        (fun q => V (Proc.devRef .tc main_arg2) (ix1 q)) (V (Proc.devRef .tc main_arg3)) (fun q => V (Proc.devRef .tc main_arg4) (ix1 q))
        (V (Proc.devRef .tc main_arg5)) (fun q => V (Proc.devRef .tc main_arg6) (ix1 q)) := by
  rw [after_ops]
  exact val11_v100 V

theorem keep_arg0 (V : Val) : after (ops (F := Ideal)) V (Proc.devRef .tc main_arg0) = V (Proc.devRef .tc main_arg0) := by
  rw [after_ops]
  exact val11_arg0 V
theorem keep_arg1 (V : Val) : after (ops (F := Ideal)) V (Proc.devRef .tc main_arg1) = V (Proc.devRef .tc main_arg1) := by
  rw [after_ops]
  exact val11_arg1 V
theorem keep_arg2 (V : Val) : after (ops (F := Ideal)) V (Proc.devRef .tc main_arg2) = V (Proc.devRef .tc main_arg2) := by
  rw [after_ops]
  exact val11_arg2 V
theorem keep_arg3 (V : Val) : after (ops (F := Ideal)) V (Proc.devRef .tc main_arg3) = V (Proc.devRef .tc main_arg3) := by
  rw [after_ops]
  exact val11_arg3 V
theorem keep_arg4 (V : Val) : after (ops (F := Ideal)) V (Proc.devRef .tc main_arg4) = V (Proc.devRef .tc main_arg4) := by
  rw [after_ops]
  exact val11_arg4 V
theorem keep_arg5 (V : Val) : after (ops (F := Ideal)) V (Proc.devRef .tc main_arg5) = V (Proc.devRef .tc main_arg5) := by
  rw [after_ops]
  exact val11_arg5 V
theorem keep_arg6 (V : Val) : after (ops (F := Ideal)) V (Proc.devRef .tc main_arg6) = V (Proc.devRef .tc main_arg6) := by
  rw [after_ops]
  exact val11_arg6 V
theorem keep_arg7 (V : Val) : after (ops (F := Ideal)) V (Proc.devRef .tc main_arg7) = V (Proc.devRef .tc main_arg7) := by
  rw [after_ops]
  exact val11_arg7 V
theorem keep_arg8 (V : Val) : after (ops (F := Ideal)) V (Proc.devRef .tc main_arg8) = V (Proc.devRef .tc main_arg8) := by
  rw [after_ops]
  exact val11_arg8 V

/-! ## The run -/

/-- On every device, from any memory with zero counters: every weakly fair execution of the reference
    terminates with its result buffer at the network's function of the argument buffers' launch contents, and
    every argument buffer unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100)
        = GcnSpec.net (aggR (m ((c.tc : Thread nD τ).loc main_arg7)) (m ((c.tc : Thread nD τ).loc main_arg8))) meanR varR
            (m ((c.tc : Thread nD τ).loc main_arg0)) (m ((c.tc : Thread nD τ).loc main_arg1))
            (fun q => m ((c.tc : Thread nD τ).loc main_arg2) (ix1 q))
            (m ((c.tc : Thread nD τ).loc main_arg3)) (fun q => m ((c.tc : Thread nD τ).loc main_arg4) (ix1 q))
            (m ((c.tc : Thread nD τ).loc main_arg5)) (fun q => m ((c.tc : Thread nD τ).loc main_arg6) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v100).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c))⟩)
    (run_main (F := Ideal) m ρ)

end Cert.ReferenceIdeal.RefValue

end
-- ==== Proof.TermsBridge.lean ====
/-
  The two programs compute the aggregation along the edges and the two column statistics by the same whole-array
  operations. The aggregations are one term. The statistics differ only in where a row of 128 numbers is given its
  unit leading axis: one program divides the row of column sums `[1, 128]` by a `[1, 128]` splat, the other divides the
  vector of column sums `[128]` by a `[128]` splat; read at column `q` both are the same quotient of the same sum.
-/
import proofs.«117376_j33208687133526_1_alg».proof.Proof.KTerms
import proofs.«117376_j33208687133526_1_alg».proof.Proof.RefTerms
import Idealize.ShloMosaic.Lib.Pipeline.Value
import Idealize.ShloMosaic.Lib.ValueIdx

noncomputable section

namespace GcnBridge

open Idealize.ShloMosaic Idealize.ShloMosaic.ValueIdx
open Cert.KernelIdeal.KValue Cert.ReferenceIdeal.RefValue

/-- The aggregation along the edges is the same term in both programs. -/
theorem agg_eq (a7 a8 : IVec Cert.KernelIdeal.S1600000 32) (h : GcnSpec.Mat 100000 128) :
    aggK a7 a8 h = aggR a7 a8 h := rfl

section Layout
variable {α : Type}

/-- A vector given a unit leading axis, read at `(0, q)`, is the vector at `q`. -/
theorem row_of_vec (h : (⟨1, ![128]⟩ : Shape).BroadcastsInDim ⟨2, ![1, 128]⟩ ![1]) (x : (⟨1, ![128]⟩ : Shape).Idx → α)
    (q : Fin 128) : broadcastInDim ⟨2, ![1, 128]⟩ ![1] h x (ix2 (0 : Fin 1) q) = x (ix1 q) := by
  refine broadcastInDim_apply _ h x _ (ix1 q) fun a => ?_
  match a with
  | ⟨0, _⟩ => rfl

/-- A scalar splat over a row, read anywhere, is the scalar. -/
theorem splat_row (h : (⟨0, ![]⟩ : Shape).BroadcastsInDim ⟨2, ![1, 128]⟩ ![]) (x : (⟨0, ![]⟩ : Shape).Idx → α)
    (j : (⟨2, ![1, 128]⟩ : Shape).Idx) : broadcastInDim ⟨2, ![1, 128]⟩ ![] h x j = x ix0 :=
  broadcastInDim_apply _ h x j ix0 fun a => a.elim0

/-- A scalar splat over a vector, read anywhere, is the scalar. -/
theorem splat_vec (h : (⟨0, ![]⟩ : Shape).BroadcastsInDim ⟨1, ![128]⟩ ![]) (x : (⟨0, ![]⟩ : Shape).Idx → α)
    (j : (⟨1, ![128]⟩ : Shape).Idx) : broadcastInDim ⟨1, ![128]⟩ ![] h x j = x ix0 :=
  broadcastInDim_apply _ h x j ix0 fun a => a.elim0

end Layout

/-- The column means agree, column by column. -/
theorem mean_eq (y : GcnSpec.Mat 100000 128) (q : Fin 128) : meanK y q = meanR y q := by
  unfold meanK meanR meanRowK meanVecR
  show FloatOps.hostDivf _ _ = FloatOps.hostDivf _ _
  rw [row_of_vec, splat_row, splat_vec]

theorem mean_fun_eq : meanK = meanR := funext fun y => funext fun q => mean_eq y q

/-- The column variances agree, column by column: the same test of the divisor, the same sum of squared deviations
    (the deviations are from the same row of means in both programs) over the same divisor, the same word elsewhere. -/
theorem var_eq (y : GcnSpec.Mat 100000 128) (q : Fin 128) : varK y q = varR y q := by
  unfold varK varR varRowK varVecR
  show Scalar.select _ (FloatOps.hostDivf _ _) _ = Scalar.select _ (FloatOps.hostDivf _ _) _
  rw [row_of_vec, splat_row, splat_row, splat_row, splat_vec, splat_vec, splat_vec]
  rfl

theorem var_fun_eq : varK = varR := funext fun y => funext fun q => var_eq y q

end GcnBridge

end
-- ==== Proof.lean ====
/-
  A three-layer graph convolution with batch normalisation, computed two ways, gives the same result over the
  extended reals.

  Both programs aggregate the node features along the edges by the same whole-array operations (scale by the source
  node's degree factor, gather along the edges, add up at the destinations, scale by the destination's factor) and take
  the same column means and variances. They differ in how the dense part is carried out: one program multiplies the
  aggregated rows by the weight matrix, adds the bias, clamps and normalises in five regions that walk the 100000 rows
  ten thousand at a time; the other does each of these steps once over the whole array. An entry of a matrix product
  is a sum over the 128 positions of a row against a column, whichever block the row arrives in; the bias and the two
  column statistics are single rows read at the entry's column; so block by block the regions write exactly the
  entries of the whole-array formulas, and their blocks tile the arrays.

  The three frames: the two kernel programs' runs terminate with the arguments unchanged (the generated frame
  certificates); the reference's run is its list of host operations. No operation is rewritten between the kernel
  program and its reading over the extended reals, so nothing is owed for that step.
-/
import proofs.«117376_j33208687133526_1_alg».proof.Defs
import proofs.«117376_j33208687133526_1_alg».proof.Proof.Gen.Kernel
import proofs.«117376_j33208687133526_1_alg».proof.Proof.Gen.Kernel.Frame
import proofs.«117376_j33208687133526_1_alg».proof.Proof.Gen.KernelIdeal
import proofs.«117376_j33208687133526_1_alg».proof.Proof.Gen.KernelIdeal.Frame
import proofs.«117376_j33208687133526_1_alg».proof.Proof.Gen.ReferenceIdeal
import proofs.«117376_j33208687133526_1_alg».proof.Proof.Gen.Pre_finite_inputs
import proofs.«117376_j33208687133526_1_alg».proof.Proof.KStages
import proofs.«117376_j33208687133526_1_alg».proof.Proof.RefValue
import proofs.«117376_j33208687133526_1_alg».proof.Proof.TermsBridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run_value m ρ)

/-- Both programs end at the same network of the same arguments: the kernel program's aggregation and column
    statistics are the reference's (the same terms; the statistics the same quotients read at a column). -/
theorem algebraic : Cert.algebraic_KernelIdeal_ReferenceIdeal := by
  intro m ρ m' ρ' _ hagree
  refine ⟨_, Cert.KernelIdeal.KValue.run_value m ρ, ?_⟩
  refine (θ_run Cert.ReferenceIdeal.defs _ _).mono (fun _ h c => ⟨(h c).1.trans ?_, (h c).2⟩)
    (Cert.ReferenceIdeal.RefValue.run_value m' ρ')
  obtain ⟨h0, h1, h2, h3, h4, h5, h6, h7, h8⟩ := hagree c
  rw [h0, h1, h2, h3, h4, h5, h6, h7, h8, GcnBridge.mean_fun_eq, GcnBridge.var_fun_eq]
  exact congrArg (fun g => GcnSpec.net g _ _ _ _ _ _ _ _ _) (funext fun h => (GcnBridge.agg_eq _ _ h).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
